-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S8192x1024 : Shape := ⟨2, ![8192, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S4x8192x1024 .f32) (main_arg1 : FVec F S8192x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S4x8192x1024 : Shape := ⟨3, ![4, 8192, 1024]⟩
abbrev S8192x1024 : Shape := ⟨2, ![8192, 1024]⟩
abbrev S2x32x1024 : Shape := ⟨3, ![2, 32, 1024]⟩
abbrev S_ : Shape := ⟨0, ![]⟩
abbrev S1x32x1024 : Shape := ⟨3, ![1, 32, 1024]⟩
abbrev S32x1024 : Shape := ⟨2, ![32, 1024]⟩
abbrev S1x8192x1024 : Shape := ⟨3, ![1, 8192, 1024]⟩

abbrev nBuf : Table → Nat
  | .hbm => 4
  | .local .scVector .vmem => 1
  | _ => 0

abbrev bufTy : (tb : Table) → Fin (nBuf tb) → BufTy
  | .hbm, ⟨0, _⟩ => ⟨S4x8192x1024, .f32⟩
  | .hbm, ⟨1, _⟩ => ⟨S8192x1024, .f32⟩
  | .hbm, ⟨2, _⟩ => ⟨S8192x1024, .f32⟩
  | .hbm, ⟨3, _⟩ => ⟨S1x8192x1024, .f32⟩
  | .local .scVector .vmem, ⟨0, _⟩ => ⟨S2x32x1024, .f32⟩
  | _, _ => ⟨S4x8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_2 : BitVec 32 := 0#32
  ![v2.toNat, 0]
def k0_off2 (i : grid0.Coords) (c32_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v9 : BitVec 32 := Scalar.addi v2 c32_i32
  let c0_i32_8 : BitVec 32 := 0#32
  ![v9.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S2x32x1024_S1x32x1024_0_0_0 : ∀ a, (![0, 0, 0] : Fin 3 → Nat) a + S1x32x1024.size a ≤ S2x32x1024.size a
  squeezes_S1x32x1024_S32x1024 : S1x32x1024.Squeezes S32x1024
  inb_S2x32x1024_S1x32x1024_1_0_0 : ∀ a, (![1, 0, 0] : Fin 3 → Nat) a + S1x32x1024.size a ≤ S2x32x1024.size a
  bcast_S8192x1024_S1x8192x1024_1_2 : S8192x1024.BroadcastsInDim S1x8192x1024 (![1, 2] : Fin 2 → Fin S1x8192x1024.rank)
  hcc0_scratch1 : 0 + S_.numel ≤ 4
  hcc0_scratch2 : 1 + S_.numel ≤ 4
  hcc0_scratch3 : 2 + S_.numel ≤ 4
  hcc0_scratch4 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S32x1024.size a ≤ S8192x1024.size a
  k0_off2_inb : ∀ i : grid0.Coords, ∀ (r : Fin 8), ∀ a, (k0_off2 i (BitVec.ofNat 32 (32 * r.val))) a + S32x1024.size a ≤ S8192x1024.size a

variable [Facts₀]

abbrev cc0_scratch1 : DmaSems sig S_ := SemArray.consecutive 0 S_ hcc0_scratch1
abbrev cc0_scratch2 : DmaSems sig S_ := SemArray.consecutive 1 S_ hcc0_scratch2
abbrev cc0_scratch3 : DmaSems sig S_ := SemArray.consecutive 2 S_ hcc0_scratch3
abbrev cc0_scratch4 : DmaSems sig S_ := SemArray.consecutive 3 S_ hcc0_scratch4

class Facts : Prop extends Facts₀ where

variable [Facts]
-- ==== ReferenceIdeal.lean ====
abbrev S4x8192x1024 : Shape := ⟨3, ![4, 8192, 1024]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x1024 : Shape := ⟨3, ![1, 8192, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S1x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x1024_0 : S8192.BroadcastsInDim S8192x1024 (![0] : Fin 1 → Fin S8192x1024.rank)
  bcast_S_S8192x1024 : S_.BroadcastsInDim S8192x1024 (![] : Fin 0 → Fin S8192x1024.rank)
  bcast_S8192x1024_S1x8192x1024_1_2 : S8192x1024.BroadcastsInDim S1x8192x1024 (![1, 2] : Fin 2 → Fin S1x8192x1024.rank)
  gather_S8192x1024_S8192x1_S8192x1024_1_0_n_n_0_1_11024_wf : GatherDims.WF S8192x1024 S8192x1 S8192x1024 [1] [0] [] [0] [] 1 ![1, 1024]

variable [Facts₀]

def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf

class Facts : Prop extends Facts₀ where

variable [Facts]
-- ==== Proof.IdealSetup.lean ====
/-
  The idealized kernel as the SparseCore launch theorem sees it: one vector-subcore call on 2 SparseCores x 16
  vector subcores. Tile (c, s) is worker w = 2 s + c and moves rows [256 w, 256 w + 256) of the table into the
  output, in 8 chunks of 32 rows through the two halves of its scratch. Here: the ghost state (the handshakes'
  rounds beside the transfers' counters), the arrays' locations and the table's launch contents.
-/
import proofs.«202646_g14224931684789_cont_week2b_3_3_alg».proof.Defs
import Idealize.ShloMosaic.Lib.SparseCore.Launch
import Idealize.ShloMosaic.Lib.StableHlo.Run
import Idealize.ShloMosaic.Lib.Pipeline.Kit
import Idealize.ShloMosaic.Lib.Tactic
import proofs.«202646_g14224931684789_cont_week2b_3_3_alg».proof.Proof.Gen.KernelIdeal
import proofs.«202646_g14224931684789_cont_week2b_3_3_alg».proof.Proof.Gen.KernelIdeal.Skeleton

noncomputable section

namespace Cert.Proof.IdealCopy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The table (the second argument of @main) and the kernel's output, as locations of device d. -/
abbrev eLoc (d : Dev nD) : Loc nD τ sig := (SparseCore.T d).loc main_arg1
abbrev oLoc (d : Dev nD) : Loc nD τ sig := (SparseCore.T d).loc main_v0

/-- The table's launch contents as a plain function of the index: what every output row is to hold. -/
def tbl (d : Dev nD) : S8192x1024.Idx → Elt F .f32 := m (eLoc d)

end Cert.Proof.IdealCopy

end
-- ==== Proof.IdealTile.lean ====
/-
  The task of one vector subcore: eight chunks of 32 rows, each fetched into a half of the scratch and written out from it.
-/
import proofs.«202646_g14224931684789_cont_week2b_3_3_alg».proof.Proof.IdealSetup

noncomputable section

namespace Cert.Proof.IdealCopy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The memrefs, spelt as the body slices them -/

local notation "eW" => (Memref.whole Cert.KernelIdeal.main_arg1_scv : Memref Cert.KernelIdeal.sig Kind.scVector Space.hbm Cert.KernelIdeal.S8192x1024 EltTy.f32)
local notation "oW" => (Memref.whole Cert.KernelIdeal.main_v0_scv : Memref Cert.KernelIdeal.sig Kind.scVector Space.hbm Cert.KernelIdeal.S8192x1024 EltTy.f32)
local notation "bW" => (Memref.whole Cert.KernelIdeal.cc0_scratch0 : Memref Cert.KernelIdeal.sig Kind.scVector Space.vmem Cert.KernelIdeal.S2x32x1024 EltTy.f32)

/-- The two halves of a tile's scratch. -/
abbrev half0 : Memref sig .scVector .vmem S32x1024 .f32 :=
  ((bW).slice (Rect.unit (s := S2x32x1024) ![0, 0, 0] S1x32x1024.size inb_S2x32x1024_S1x32x1024_0_0_0) (fun _ => rfl)).squeeze S32x1024 squeezes_S1x32x1024_S32x1024
abbrev half1 : Memref sig .scVector .vmem S32x1024 .f32 :=
  ((bW).slice (Rect.unit (s := S2x32x1024) ![1, 0, 0] S1x32x1024.size inb_S2x32x1024_S1x32x1024_1_0_0) (fun _ => rfl)).squeeze S32x1024 squeezes_S1x32x1024_S32x1024

section Tile

variable (L : grid0.Coords)

/-- Chunk r of the tile's rows of the table, r = 0 sliced at the tile's base and the others at base + 32 r. -/
abbrev eC0 : Memref sig .scVector .hbm S32x1024 .f32 := (eW).slice (Rect.unit (s := S8192x1024) (k0_off1 L) S32x1024.size (k0_off1_inb L)) (fun _ => rfl)
abbrev eC1 : Memref sig .scVector .hbm S32x1024 .f32 := (eW).slice (Rect.unit (s := S8192x1024) (k0_off2 L 32#32) S32x1024.size (k0_off2_inb L 1)) (fun _ => rfl)
abbrev eC2 : Memref sig .scVector .hbm S32x1024 .f32 := (eW).slice (Rect.unit (s := S8192x1024) (k0_off2 L 64#32) S32x1024.size (k0_off2_inb L 2)) (fun _ => rfl)
abbrev eC3 : Memref sig .scVector .hbm S32x1024 .f32 := (eW).slice (Rect.unit (s := S8192x1024) (k0_off2 L 96#32) S32x1024.size (k0_off2_inb L 3)) (fun _ => rfl)
abbrev eC4 : Memref sig .scVector .hbm S32x1024 .f32 := (eW).slice (Rect.unit (s := S8192x1024) (k0_off2 L 128#32) S32x1024.size (k0_off2_inb L 4)) (fun _ => rfl)
abbrev eC5 : Memref sig .scVector .hbm S32x1024 .f32 := (eW).slice (Rect.unit (s := S8192x1024) (k0_off2 L 160#32) S32x1024.size (k0_off2_inb L 5)) (fun _ => rfl)
abbrev eC6 : Memref sig .scVector .hbm S32x1024 .f32 := (eW).slice (Rect.unit (s := S8192x1024) (k0_off2 L 192#32) S32x1024.size (k0_off2_inb L 6)) (fun _ => rfl)
abbrev eC7 : Memref sig .scVector .hbm S32x1024 .f32 := (eW).slice (Rect.unit (s := S8192x1024) (k0_off2 L 224#32) S32x1024.size (k0_off2_inb L 7)) (fun _ => rfl)
/-- Chunk r of the tile's rows of the output. -/
abbrev oC0 : Memref sig .scVector .hbm S32x1024 .f32 := (oW).slice (Rect.unit (s := S8192x1024) (k0_off2 L 0#32) S32x1024.size (k0_off2_inb L 0)) (fun _ => rfl)
abbrev oC1 : Memref sig .scVector .hbm S32x1024 .f32 := (oW).slice (Rect.unit (s := S8192x1024) (k0_off2 L 32#32) S32x1024.size (k0_off2_inb L 1)) (fun _ => rfl)
abbrev oC2 : Memref sig .scVector .hbm S32x1024 .f32 := (oW).slice (Rect.unit (s := S8192x1024) (k0_off2 L 64#32) S32x1024.size (k0_off2_inb L 2)) (fun _ => rfl)
abbrev oC3 : Memref sig .scVector .hbm S32x1024 .f32 := (oW).slice (Rect.unit (s := S8192x1024) (k0_off2 L 96#32) S32x1024.size (k0_off2_inb L 3)) (fun _ => rfl)
abbrev oC4 : Memref sig .scVector .hbm S32x1024 .f32 := (oW).slice (Rect.unit (s := S8192x1024) (k0_off2 L 128#32) S32x1024.size (k0_off2_inb L 4)) (fun _ => rfl)
abbrev oC5 : Memref sig .scVector .hbm S32x1024 .f32 := (oW).slice (Rect.unit (s := S8192x1024) (k0_off2 L 160#32) S32x1024.size (k0_off2_inb L 5)) (fun _ => rfl)
abbrev oC6 : Memref sig .scVector .hbm S32x1024 .f32 := (oW).slice (Rect.unit (s := S8192x1024) (k0_off2 L 192#32) S32x1024.size (k0_off2_inb L 6)) (fun _ => rfl)
abbrev oC7 : Memref sig .scVector .hbm S32x1024 .f32 := (oW).slice (Rect.unit (s := S8192x1024) (k0_off2 L 224#32) S32x1024.size (k0_off2_inb L 7)) (fun _ => rfl)

variable (d : Dev nD)

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

/-- A memref's elements held outright by the tile. -/
abbrev own {κ : Space} {s : Shape} (M : Memref sig .scVector κ s .f32) (f : Buf (Elt F) (M.view.loc (thr d L))) : sProp 𝕄 :=
  M.view.loc (thr d L) ↦[M.view.set]{fullShare} f

variable [FloatOps F]

/-! ## The scratch as its two halves -/

abbrev R0 : Rect S2x32x1024 := Rect.unit (s := S2x32x1024) ![0, 0, 0] S1x32x1024.size inb_S2x32x1024_S1x32x1024_0_0_0
abbrev R1 : Rect S2x32x1024 := Rect.unit (s := S2x32x1024) ![1, 0, 0] S1x32x1024.size inb_S2x32x1024_S1x32x1024_1_0_0

omit L in
theorem half0_set : (half0).view.set = R0.set := by
  show (((bW).view.slice R0).reshape S32x1024 squeezes_S1x32x1024_S32x1024.numel_eq).set = _
  rw [View.set_reshape]
  show ((View.whole (cc0_scratch0 : Ref sig .scVector)).slice R0).set = _
  rw [View.set_slice]; exact Finset.map_refl
omit L in
theorem half1_set : (half1).view.set = R1.set := by
  show (((bW).view.slice R1).reshape S32x1024 squeezes_S1x32x1024_S32x1024.numel_eq).set = _
  rw [View.set_reshape]
  show ((View.whole (cc0_scratch0 : Ref sig .scVector)).slice R1).set = _
  rw [View.set_slice]; exact Finset.map_refl

omit L in
theorem halves_disjoint : Disjoint R0.set R1.set := Rect.unit_disjoint 0 (Or.inl (by decide))
omit L in
theorem halves_cover : R0.set ∪ R1.set = Finset.univ := by
  ext i
  simp only [Finset.mem_union, Rect.mem_set_unit, Finset.mem_univ, iff_true]
  have h0 : (i 0).val < 2 := (i 0).isLt
  have h1 : (i 1).val < 32 := (i 1).isLt
  have h2 : (i 2).val < 1024 := (i 2).isLt
  by_cases h : (i 0).val = 0
  · left; intro a
    match a with
    | ⟨0, _⟩ => exact ⟨Nat.zero_le _, by show (i 0).val < 0 + 1; omega⟩
    | ⟨1, _⟩ => exact ⟨Nat.zero_le _, by show (i 1).val < 0 + 32; omega⟩
    | ⟨2, _⟩ => exact ⟨Nat.zero_le _, by show (i 2).val < 0 + 1024; omega⟩
  · right; intro a
    match a with
    | ⟨0, _⟩ => exact ⟨by show 1 ≤ (i 0).val; omega, by show (i 0).val < 1 + 1; omega⟩
    | ⟨1, _⟩ => exact ⟨Nat.zero_le _, by show (i 1).val < 0 + 32; omega⟩
    | ⟨2, _⟩ => exact ⟨Nat.zero_le _, by show (i 2).val < 0 + 1024; omega⟩

/-- The tile's scratch, held whole, is its two halves held each by its own elements. -/
theorem scratch_split (f : Buf (Elt F) ((thr d L).loc cc0_scratch0)) :
    ((thr d L).loc cc0_scratch0 ↦{fullShare} f : sProp 𝕄) ⊣⊢ iprop(own L d half0 f ∗ own L d half1 f) := by
  show _ ⊣⊢ iprop(((thr d L).loc cc0_scratch0 ↦[half0.view.set]{fullShare} f) ∗ ((thr d L).loc cc0_scratch0 ↦[half1.view.set]{fullShare} f))
  rw [half0_set, half1_set]
  have h : ((thr d L).loc cc0_scratch0 ↦[R0.set ∪ R1.set]{fullShare} f : sProp 𝕄)
      ⊣⊢ iprop(((thr d L).loc cc0_scratch0 ↦[R0.set]{fullShare} f) ∗ (thr d L).loc cc0_scratch0 ↦[R1.set]{fullShare} f) :=
    pointsTo_union halves_disjoint
  rw [halves_cover] at h
  exact h

/-- and the halves, at whatever each holds, are the scratch again. -/
theorem scratch_join (g0 g1 : Buf (Elt F) ((thr d L).loc cc0_scratch0)) :
    iprop(own L d half0 g0 ∗ own L d half1 g1) ⊢ (iprop(∃ f, (thr d L).loc cc0_scratch0 ↦{fullShare} f) : sProp 𝕄) := by
  show iprop(((thr d L).loc cc0_scratch0 ↦[half0.view.set]{fullShare} g0) ∗ ((thr d L).loc cc0_scratch0 ↦[half1.view.set]{fullShare} g1)) ⊢ _
  rw [half0_set, half1_set]
  iintro H
  ihave H' := (pointsTo_join halves_disjoint) $$ H
  rw [halves_cover]
  iexists _; iexact H'

omit L d in
/-- A wait at the kernels' own index, recorded on top of waits that are the launch's or at that index. -/
theorem waits_ins {W S : Waits sig (HIx 1)} (sm : SemLoc sig) (h : ∀ p ∈ S, p ∈ W ∨ p.2 = none) :
    ∀ p ∈ insert (sm, (default : HIx 1)) S, p ∈ W ∨ p.2 = none :=
  fun p hp => (Finset.mem_insert.mp hp).elim (fun e => .inr (e ▸ rfl)) (h p)

/-! ## The tile's own cells and buffers -/

abbrev cell1 : GSem nD τ sig := (thr d L, .dma cc0_scratch1.sem)
abbrev cell2 : GSem nD τ sig := (thr d L, .dma cc0_scratch2.sem)
abbrev cell3 : GSem nD τ sig := (thr d L, .dma cc0_scratch3.sem)
abbrev cell4 : GSem nD τ sig := (thr d L, .dma cc0_scratch4.sem)

theorem ownSems0_V4 :
    (ownSems0 (thr d L) : sProp 𝕄)
      = iprop(semVal (cell1 L d) 0 ∗ semVal (cell2 L d) 0 ∗ semVal (cell3 L d) 0 ∗ semVal (cell4 L d) 0
          ∗ bigSep (((((ownCells (thr d L)).erase (cell1 L d)).erase (cell2 L d)).erase (cell3 L d)).erase (cell4 L d))
              fun g => semVal g 0) := by
  unfold SparseCore.Cfg.ownSems0
  have m1 : cell1 L d ∈ ownCells (thr d L) := (mem_ownCells (g := cell1 L d)).mpr ⟨rfl, by
    show (SemLoc.dma cc0_scratch1.sem : SemLoc sig).isScoped .scVector = true; decide⟩
  have m2 : cell2 L d ∈ ownCells (thr d L) := (mem_ownCells (g := cell2 L d)).mpr ⟨rfl, by
    show (SemLoc.dma cc0_scratch2.sem : SemLoc sig).isScoped .scVector = true; decide⟩
  have m3 : cell3 L d ∈ ownCells (thr d L) := (mem_ownCells (g := cell3 L d)).mpr ⟨rfl, by
    show (SemLoc.dma cc0_scratch3.sem : SemLoc sig).isScoped .scVector = true; decide⟩
  have m4 : cell4 L d ∈ ownCells (thr d L) := (mem_ownCells (g := cell4 L d)).mpr ⟨rfl, by
    show (SemLoc.dma cc0_scratch4.sem : SemLoc sig).isScoped .scVector = true; decide⟩
  have ne (a b : DmaSem sig) (h : a ≠ b) : ((thr d L, SemLoc.dma a) : GSem nD τ sig) ≠ (thr d L, SemLoc.dma b) :=
    fun e => h (SemLoc.dma.inj (Prod.mk.inj e).2)
  rw [SparseCore.bigSep_erase' m1,
    SparseCore.bigSep_erase' (Finset.mem_erase.mpr ⟨ne _ _ (by decide), m2⟩),
    SparseCore.bigSep_erase' (Finset.mem_erase.mpr ⟨ne _ _ (by decide), Finset.mem_erase.mpr ⟨ne _ _ (by decide), m3⟩⟩),
    SparseCore.bigSep_erase' (Finset.mem_erase.mpr ⟨ne _ _ (by decide), Finset.mem_erase.mpr ⟨ne _ _ (by decide),
      Finset.mem_erase.mpr ⟨ne _ _ (by decide), m4⟩⟩⟩)]

theorem ownBufs_V1 :
    (ownBufs (thr d L) : sProp 𝕄)
      = iprop((∃ f, (thr d L).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-! ## What a chunk of the output holds once its two copies have landed -/

theorem cast_cancel {α β : Sort _} (h : α = β) {a b : α} (e : cast h a = cast h b) : a = b := by subst h; exact e

/-- A piece written last through the whole rectangle is what the view reads back. -/
theorem read_last_whole {sg : RefSig} {κ : Kind} {sp : Space} {s : Shape} {e : EltTy} {Val : EltTy → Type}
    (v : View sg κ sp s e) (f : v.ty.Contents Val) (w : s.Idx → Val e) (Ls : List (View.Piece Val s e)) :
    v.read Val (v.writes Val f (⟨Rect.whole s, w⟩ :: Ls)) = w := by
  funext y
  have h := View.read_writes_cons_emb v f (Rect.whole s) w Ls y
  rwa [Rect.emb_whole_apply] at h

/-- Chunk to half to chunk: the output chunk reads back the table's chunk, whatever either held before. -/
theorem landed_read {sg : RefSig} {κ : Kind} {Val : EltTy → Type} {s : Shape} {e : EltTy}
    (Mo Me : View sg κ .hbm s e) (Mh : View sg κ .vmem s e)
    (fo : Mo.ty.Contents Val) (fe : Me.ty.Contents Val) (fh : Mh.ty.Contents Val) (Lh : List (View.Piece Val s e)) :
    Mo.read Val (Mo.writes Val fo [⟨Rect.whole s, ReadAs.same.apply (Mh.read Val (Mh.writes Val fh
      (⟨Rect.whole s, ReadAs.same.apply (Me.read Val fe)⟩ :: Lh)))⟩]) = Me.read Val fe := by
  rw [read_last_whole]
  show Mh.read Val _ = _
  rw [read_last_whole]

/-- The table's and the output's slices at one offset read one buffer alike. -/
theorem read_chunk_eq (o o' : Fin 2 → Nat) (h : ∀ a, o a + S32x1024.size a ≤ S8192x1024.size a)
    (h' : ∀ a, o' a + S32x1024.size a ≤ S8192x1024.size a) (e : o = o') (fe : Buf (Elt F) (eLoc d)) (y : S32x1024.Idx) :
    ((oW).slice (Rect.unit (s := S8192x1024) o' S32x1024.size h') (fun _ => rfl)).view.read (Elt F) fe y
      = ((eW).slice (Rect.unit (s := S8192x1024) o S32x1024.size h) (fun _ => rfl)).view.read (Elt F) fe y := by
  subst e; rfl

omit [FloatOps F] in
theorem off1_eq_off2 : k0_off1 L = k0_off2 L 0#32 :=
  (k0_off1_eq L).trans ((k0_off2_eq L 0).trans (by simp)).symm

/-- An output chunk written from a half that the table's chunk was fetched into holds the table's values there. -/
theorem own_landed (Mo Me : Memref sig .scVector .hbm S32x1024 .f32) (Mh : Memref sig .scVector .vmem S32x1024 .f32)
    (fo : Buf (Elt F) (Mo.view.loc (thr d L))) (fe : Buf (Elt F) (Me.view.loc (thr d L)))
    (fh : Buf (Elt F) (Mh.view.loc (thr d L))) (Lh : List (View.Piece (Elt F) S32x1024 .f32))
    (g : Buf (Elt F) (Mo.view.loc (thr d L))) (hg : ∀ y, Mo.view.read (Elt F) g y = Me.view.read (Elt F) fe y) :
    (own L d Mo (Mo.view.writes (Elt F) fo [⟨Rect.whole S32x1024, ReadAs.same.apply (Mh.view.read (Elt F)
        (Mh.view.writes (Elt F) fh (⟨Rect.whole S32x1024, ReadAs.same.apply (Me.view.read (Elt F) fe)⟩ :: Lh)))⟩]) : sProp 𝕄)
      = own L d Mo g :=
  pointsTo_congr fun i hi => by
    obtain ⟨y, -, rfl⟩ := Finset.mem_map.mp hi
    have h1 := (congrFun (landed_read Mo.view Me.view Mh.view fo fe fh Lh) y).trans (hg y).symm
    rw [View.read_apply, View.read_apply] at h1
    exact cast_cancel _ h1

set_option maxHeartbeats 4000000 in
/-- The task on vector subcore (L 0, L 1) of device d: each chunk of the table fetched into a half of the scratch and
    written out from it; at the end every output chunk holds the table's chunk. -/
theorem tile_body (hF : (K (F := F)).Facts) (O : CellTallies nD τ sig (HIx 1)) (W : Waits sig (HIx 1)) (hO : ∀ g, O g none = 0)
    (fe : Buf (Elt F) (eLoc d)) (fo : Buf (Elt F) (oLoc d)) :
    iprop(levAts (K (F := F)).L (K (F := F)).lev
        ∗ (own L d (eC0 L) fe ∗ own L d (eC1 L) fe ∗ own L d (eC2 L) fe ∗ own L d (eC3 L) fe ∗ own L d (eC4 L) fe ∗ own L d (eC5 L) fe ∗ own L d (eC6 L) fe ∗ own L d (eC7 L) fe)
        ∗ (own L d (oC0 L) fo ∗ own L d (oC1 L) fo ∗ own L d (oC2 L) fo ∗ own L d (oC3 L) fo ∗ own L d (oC4 L) fo ∗ own L d (oC5 L) fo ∗ own L d (oC6 L) fo ∗ own L d (oC7 L) fo)
        ∗ scopedBufs (thr d L) ∗ scopedSems0 (thr d L) ∗ owes (thr d L) O W)
      ⊢ wp frame (wpE (defs₀ (F := F)) 𝒱₀ (thr d L) none) Set.univ
          (cc0__pos_copy L eW (Memref.isWhole_whole _) oW (Memref.isWhole_whole _) bW (Memref.isWhole_whole _)
            cc0_scratch1 cc0_scratch2 cc0_scratch3 cc0_scratch4)
          fun _ => iprop((own L d (eC0 L) fe ∗ own L d (eC1 L) fe ∗ own L d (eC2 L) fe ∗ own L d (eC3 L) fe ∗ own L d (eC4 L) fe ∗ own L d (eC5 L) fe ∗ own L d (eC6 L) fe ∗ own L d (eC7 L) fe)
            ∗ (own L d (oC0 L) fe ∗ own L d (oC1 L) fe ∗ own L d (oC2 L) fe ∗ own L d (oC3 L) fe ∗ own L d (oC4 L) fe ∗ own L d (oC5 L) fe ∗ own L d (oC6 L) fe ∗ own L d (oC7 L) fe)
            ∗ scopedBufs (thr d L) ∗ scopedSems0 (thr d L)
            ∗ ∃ W', ⌜∀ p ∈ W', p ∈ W ∨ p.2 = none⌝ ∗ owes (thr d L) O W') := by
  simp only [cc0__pos_copy_eq_skeleton]; unfold cc0__pos_copy_skel
  rw [(K (F := F)).scopedBufs_V hF d (cV L) (jV L), SparseCore.Cfg.scopedSems0_V (Val := Elt F) d (cV L) (jV L), ownSems0_V4, ownBufs_V1]
  iintro ⟨#Hlv, ⟨He0, He1, He2, He3, He4, He5, He6, He7⟩, ⟨Ho0, Ho1, Ho2, Ho3, Ho4, Ho5, Ho6, Ho7⟩, ⟨⟨%fs, Hs⟩, Hbufs⟩, ⟨Hs1, Hs2, Hs3, Hs4, Hsems⟩, HO⟩
  ihave Hh := (scratch_split L d fs).1 $$ Hs
  icases Hh with ⟨Hb0, Hb1⟩
  ihave Hmw := ((K (F := F)).mayWaits_none (thr := thr d L) hO) $$ Hlv
  sl_exec_parts
  sl_step
  sl_unfold_run_names
  ihave Ho0' := (Entails.of_eq (own_landed L d (oC0 L) (eC0 L) half0 fo fe fs _ fe (fun y => read_chunk_eq d _ _ _ _ (off1_eq_off2 L) fe y))) $$ Ho0
  ihave Ho1' := (Entails.of_eq (own_landed L d (oC1 L) (eC1 L) half1 fo fe fs _ fe (fun y => read_chunk_eq d _ _ _ _ rfl fe y))) $$ Ho1
  ihave Ho2' := (Entails.of_eq (own_landed L d (oC2 L) (eC2 L) half0 fo fe fs _ fe (fun y => read_chunk_eq d _ _ _ _ rfl fe y))) $$ Ho2
  ihave Ho3' := (Entails.of_eq (own_landed L d (oC3 L) (eC3 L) half1 fo fe fs _ fe (fun y => read_chunk_eq d _ _ _ _ rfl fe y))) $$ Ho3
  ihave Ho4' := (Entails.of_eq (own_landed L d (oC4 L) (eC4 L) half0 fo fe fs _ fe (fun y => read_chunk_eq d _ _ _ _ rfl fe y))) $$ Ho4
  ihave Ho5' := (Entails.of_eq (own_landed L d (oC5 L) (eC5 L) half1 fo fe fs _ fe (fun y => read_chunk_eq d _ _ _ _ rfl fe y))) $$ Ho5
  ihave Ho6' := (Entails.of_eq (own_landed L d (oC6 L) (eC6 L) half0 fo fe fs _ fe (fun y => read_chunk_eq d _ _ _ _ rfl fe y))) $$ Ho6
  ihave Ho7' := (Entails.of_eq (own_landed L d (oC7 L) (eC7 L) half1 fo fe fs _ fe (fun y => read_chunk_eq d _ _ _ _ rfl fe y))) $$ Ho7
  isplitl [He0 He1 He2 He3 He4 He5 He6 He7]
  ·
    isplitl [He0]; · iexact He0
    isplitl [He1]; · iexact He1
    isplitl [He2]; · iexact He2
    isplitl [He3]; · iexact He3
    isplitl [He4]; · iexact He4
    isplitl [He5]; · iexact He5
    isplitl [He6]; · iexact He6
    iexact He7
  isplitl [Ho0' Ho1' Ho2' Ho3' Ho4' Ho5' Ho6' Ho7']
  ·
    isplitl [Ho0']; · iexact Ho0'
    isplitl [Ho1']; · iexact Ho1'
    isplitl [Ho2']; · iexact Ho2'
    isplitl [Ho3']; · iexact Ho3'
    isplitl [Ho4']; · iexact Ho4'
    isplitl [Ho5']; · iexact Ho5'
    isplitl [Ho6']; · iexact Ho6'
    iexact Ho7'
  isplitl [Hb0 Hb1 Hbufs]
  · isplitl [Hb0 Hb1]
    · iapply (scratch_join L d _ _)
      isplitl [Hb0]; · iexact Hb0
      iexact Hb1
    · iexact Hbufs
  isplitl [Hs1 Hs2 Hs3 Hs4 Hsems]
  ·
    isplitl [Hs1]; · iexact Hs1
    isplitl [Hs2]; · iexact Hs2
    isplitl [Hs3]; · iexact Hs3
    isplitl [Hs4]; · iexact Hs4
    iexact Hsems
  iexists _; isplitr
  rotate_left
  · iexact HO
  · ipureintro
    repeat (first | exact fun p hp => Or.inl hp | refine waits_ins _ ?_)

end Tile

end Cert.Proof.IdealCopy

end
-- ==== Proof.IdealRun.lean ====
/-
  The launch: what the handshakes carry (each tile its eight chunks of the table and of the output, the output's back at the table's values), the tile's obligation from its task, the split of a SparseCore's share among its tiles, the launch element, @main on the TensorCore, and the program's run with the result named.
-/
import proofs.«202646_g14224931684789_cont_week2b_3_3_alg».proof.Proof.IdealTile

noncomputable section

namespace Cert.Proof.IdealCopy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "eW" => (Memref.whole Cert.KernelIdeal.main_arg1_scv : Memref Cert.KernelIdeal.sig Kind.scVector Space.hbm Cert.KernelIdeal.S8192x1024 EltTy.f32)
local notation "oW" => (Memref.whole Cert.KernelIdeal.main_v0_scv : Memref Cert.KernelIdeal.sig Kind.scVector Space.hbm Cert.KernelIdeal.S8192x1024 EltTy.f32)
local notation "bW" => (Memref.whole Cert.KernelIdeal.cc0_scratch0 : Memref Cert.KernelIdeal.sig Kind.scVector Space.vmem Cert.KernelIdeal.S2x32x1024 EltTy.f32)

/-! ## The 256 chunks of 32 rows: chunk r of tile (c, s) starts at row 512 s + 256 c + 32 r -/

abbrev cOff (c : Fin 2) (s : Fin 16) (r : Fin 8) : Fin 2 → Nat := ![512 * s.val + 256 * c.val + 32 * r.val, 0]
theorem cOff_inb (c : Fin 2) (s : Fin 16) (r : Fin 8) : ∀ a, cOff c s r a + S32x1024.size a ≤ S8192x1024.size a := by
  intro a
  match a with
  | ⟨0, _⟩ => show 512 * s.val + 256 * c.val + 32 * r.val + 32 ≤ 8192; omega
  | ⟨1, _⟩ => show 0 + 1024 ≤ 1024; omega
abbrev cRect (c : Fin 2) (s : Fin 16) (r : Fin 8) : Rect S8192x1024 := Rect.unit (s := S8192x1024) (cOff c s r) S32x1024.size (cOff_inb c s r)
abbrev cSet (c : Fin 2) (s : Fin 16) (r : Fin 8) : Finset S8192x1024.Idx := (cRect c s r).set

abbrev J : Type := Fin 2 × Fin 16 × Fin 8

theorem cSet_disjoint : ∀ j ∈ (Finset.univ : Finset J), ∀ j' ∈ (Finset.univ : Finset J), j ≠ j' →
    Disjoint (cSet j.1 j.2.1 j.2.2) (cSet j'.1 j'.2.1 j'.2.2) := by
  rintro ⟨c, s, r⟩ - ⟨c', s', r'⟩ - hne
  refine Rect.unit_disjoint 0 ?_
  show 512 * s.val + 256 * c.val + 32 * r.val + 32 ≤ 512 * s'.val + 256 * c'.val + 32 * r'.val
    ∨ 512 * s'.val + 256 * c'.val + 32 * r'.val + 32 ≤ 512 * s.val + 256 * c.val + 32 * r.val
  have hn : ¬ (c.val = c'.val ∧ s.val = s'.val ∧ r.val = r'.val) :=
    fun ⟨h1, h2, h3⟩ => hne (Prod.ext (Fin.ext h1) (Prod.ext (Fin.ext h2) (Fin.ext h3)))
  have := c.isLt; have := c'.isLt; have := s.isLt; have := s'.isLt; have := r.isLt; have := r'.isLt
  omega

theorem cSet_cover : (Finset.univ : Finset J).biUnion (fun j => cSet j.1 j.2.1 j.2.2) = Finset.univ := by
  ext i
  simp only [Finset.mem_biUnion, Finset.mem_univ, true_and, iff_true]
  have h0 : (i 0).val < 8192 := (i 0).isLt
  have h1 : (i 1).val < 1024 := (i 1).isLt
  refine ⟨(⟨((i 0).val % 512) / 256, by omega⟩, ⟨(i 0).val / 512, by omega⟩, ⟨((i 0).val % 256) / 32, by omega⟩), ?_⟩
  refine Rect.mem_set_unit.mpr fun a => ?_
  match a with
  | ⟨0, _⟩ =>
    exact ⟨by show 512 * ((i 0).val / 512) + 256 * ((i 0).val % 512 / 256) + 32 * ((i 0).val % 256 / 32) ≤ (i 0).val; omega,
      by show (i 0).val < 512 * ((i 0).val / 512) + 256 * ((i 0).val % 512 / 256) + 32 * ((i 0).val % 256 / 32) + 32; omega⟩
  | ⟨1, _⟩ => exact ⟨Nat.zero_le _, by show (i 1).val < 0 + 1024; omega⟩

omit [FloatOps F] in
theorem ePts_chunks (d : Dev nD) (f : Buf (Elt F) (eLoc d)) :
    (eLoc d ↦{fullShare} f : sProp 𝕄)
      = bigSep Finset.univ fun c : Fin 2 => bigSep Finset.univ fun s : Fin 16 => bigSep Finset.univ fun r : Fin 8 => eLoc d ↦[cSet c s r]{fullShare} f := by
  have h : (eLoc d ↦[(Finset.univ : Finset J).biUnion fun j => cSet j.1 j.2.1 j.2.2]{fullShare} f : sProp 𝕄)
      = bigSep Finset.univ fun j : J => eLoc d ↦[cSet j.1 j.2.1 j.2.2]{fullShare} f :=
    pointsTo_biUnion Finset.univ _ cSet_disjoint
  rw [cSet_cover] at h
  refine h.trans ?_
  rw [bigSep_univ_prod]
  refine bigSep_congr fun c _ => ?_
  rw [bigSep_univ_prod]

omit [FloatOps F] in
theorem oPts_chunks (d : Dev nD) (f : Buf (Elt F) (oLoc d)) :
    (oLoc d ↦{fullShare} f : sProp 𝕄)
      = bigSep Finset.univ fun c : Fin 2 => bigSep Finset.univ fun s : Fin 16 => bigSep Finset.univ fun r : Fin 8 => oLoc d ↦[cSet c s r]{fullShare} f := by
  have h : (oLoc d ↦[(Finset.univ : Finset J).biUnion fun j => cSet j.1 j.2.1 j.2.2]{fullShare} f : sProp 𝕄)
      = bigSep Finset.univ fun j : J => oLoc d ↦[cSet j.1 j.2.1 j.2.2]{fullShare} f :=
    pointsTo_biUnion Finset.univ _ cSet_disjoint
  rw [cSet_cover] at h
  refine h.trans ?_
  rw [bigSep_univ_prod]
  refine bigSep_congr fun c _ => ?_
  rw [bigSep_univ_prod]

/-! ## What the handshakes carry -/

omit [FloatOps F] in
theorem bound_zero : grid0.bound 0 = 2 := rfl
omit [FloatOps F] in
theorem bound_one : grid0.bound 1 = 16 := rfl

/-- A tile's eight chunks of the table and of the output, the output at its launch contents; -/
def chunksIn (d : Dev nD) (c : Fin 2) (s : Fin 16) : sProp 𝕄 :=
  iprop((bigSep Finset.univ fun r : Fin 8 => eLoc d ↦[cSet c s r]{fullShare} m (eLoc d))
    ∗ bigSep Finset.univ fun r : Fin 8 => oLoc d ↦[cSet c s r]{fullShare} m (oLoc d))
/-- and back, the output's chunks at the table's values. -/
def chunksOut (d : Dev nD) (c : Fin 2) (s : Fin 16) : sProp 𝕄 :=
  iprop((bigSep Finset.univ fun r : Fin 8 => eLoc d ↦[cSet c s r]{fullShare} m (eLoc d))
    ∗ bigSep Finset.univ fun r : Fin 8 => oLoc d ↦[cSet c s r]{fullShare} tbl m d)

instance chunksIn_storable (d : Dev nD) (c : Fin 2) (s : Fin 16) : BI.Storable (upEmb : UEmb _ 𝕄) (chunksIn m d c s) := by
  unfold chunksIn; infer_instance
instance chunksOut_storable (d : Dev nD) (c : Fin 2) (s : Fin 16) : BI.Storable (upEmb : UEmb _ 𝕄) (chunksOut m d c s) := by
  unfold chunksOut; infer_instance

/-- The one call hands SparseCore c its sixteen tiles' chunks, each tile its own, and brings them back. -/
def P : (K (F := F)).Pay (nD := nD) (Val := Elt F) (Name := ℕ) (U := UU) where
  st := fun q d c => match q with | 0 => bigSep Finset.univ fun s : Fin 16 => chunksIn m d (Fin.cast nCore_zero c) s
  dn := fun q d c => match q with | 0 => bigSep Finset.univ fun s : Fin 16 => chunksOut m d (Fin.cast nCore_zero c) s
  go := fun q d c i => match q with | 0 => chunksIn m d (Fin.cast nCore_zero c) (Fin.cast nSub_zero i)
  td := fun q d c i => match q with | 0 => chunksOut m d (Fin.cast nCore_zero c) (Fin.cast nSub_zero i)
  x := fun _ _ => iprop(emp)

instance P_storable : (P (F := F) m).IsStorable where
  st q d c := match q with | 0 => (inferInstance : BI.Storable (upEmb : UEmb _ 𝕄) (bigSep Finset.univ fun s : Fin 16 => chunksIn m d (Fin.cast nCore_zero c) s))
  dn q d c := match q with | 0 => (inferInstance : BI.Storable (upEmb : UEmb _ 𝕄) (bigSep Finset.univ fun s : Fin 16 => chunksOut m d (Fin.cast nCore_zero c) s))
  go q d c i := match q with | 0 => (inferInstance : BI.Storable (upEmb : UEmb _ 𝕄) (chunksIn m d (Fin.cast nCore_zero c) (Fin.cast nSub_zero i)))
  td q d c i := match q with | 0 => (inferInstance : BI.Storable (upEmb : UEmb _ 𝕄) (chunksOut m d (Fin.cast nCore_zero c) (Fin.cast nSub_zero i)))

/-! ## The tile's chunks as the launch states them and as the body slices them -/

omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

section Link

variable (L : grid0.Coords)

abbrev cL (L : grid0.Coords) : Fin 2 := Fin.cast bound_zero (L 0)
abbrev sL (L : grid0.Coords) : Fin 16 := Fin.cast bound_one (L 1)

omit [FloatOps F] in
/-- A slice of the table at a chunk's offset has the chunk's elements; -/
theorem eSet_of (o : Fin 2 → Nat) (h : ∀ a, o a + S32x1024.size a ≤ S8192x1024.size a) (c : Fin 2) (s : Fin 16) (r : Fin 8)
    (e : o = cOff c s r) :
    ((eW).slice (Rect.unit (s := S8192x1024) o S32x1024.size h) (fun _ => rfl)).view.set = cSet c s r := by
  subst e
  show ((View.whole (main_arg1_scv : Ref sig .scVector)).slice _).set = _
  rw [View.set_slice]; exact Finset.map_refl
omit [FloatOps F] in
/-- so has the output's. -/
theorem oSet_of (o : Fin 2 → Nat) (h : ∀ a, o a + S32x1024.size a ≤ S8192x1024.size a) (c : Fin 2) (s : Fin 16) (r : Fin 8)
    (e : o = cOff c s r) :
    ((oW).slice (Rect.unit (s := S8192x1024) o S32x1024.size h) (fun _ => rfl)).view.set = cSet c s r := by
  subst e
  show ((View.whole (main_v0_scv : Ref sig .scVector)).slice _).set = _
  rw [View.set_slice]; exact Finset.map_refl

omit [FloatOps F] in
theorem off1_cOff : k0_off1 L = cOff (cL L) (sL L) 0 := (k0_off1_eq L).trans (by simp [cOff])
omit [FloatOps F] in
theorem off2_cOff (w : BitVec 32) (r : Fin 8) (hw : w = BitVec.ofNat 32 (32 * r.val)) : k0_off2 L w = cOff (cL L) (sL L) r :=
  hw ▸ k0_off2_eq L r

variable (d : Dev nD)

omit [FloatOps F] in
theorem eOwn_eq (f : Buf (Elt F) (eLoc d)) :
    (iprop(own L d (eC0 L) f ∗ own L d (eC1 L) f ∗ own L d (eC2 L) f ∗ own L d (eC3 L) f ∗ own L d (eC4 L) f ∗ own L d (eC5 L) f ∗ own L d (eC6 L) f ∗ own L d (eC7 L) f) : sProp 𝕄)
      = bigSep Finset.univ fun r : Fin 8 => eLoc d ↦[cSet (cL L) (sL L) r]{fullShare} f := by
  rw [bigSep_fin8]
  show iprop((eLoc d ↦[(eC0 L).view.set]{fullShare} f) ∗ (eLoc d ↦[(eC1 L).view.set]{fullShare} f) ∗ (eLoc d ↦[(eC2 L).view.set]{fullShare} f)
    ∗ (eLoc d ↦[(eC3 L).view.set]{fullShare} f) ∗ (eLoc d ↦[(eC4 L).view.set]{fullShare} f) ∗ (eLoc d ↦[(eC5 L).view.set]{fullShare} f)
    ∗ (eLoc d ↦[(eC6 L).view.set]{fullShare} f) ∗ (eLoc d ↦[(eC7 L).view.set]{fullShare} f)) = _
  rw [eSet_of _ _ (cL L) (sL L) 0 (off1_cOff L), eSet_of _ _ (cL L) (sL L) 1 (off2_cOff L 32#32 1 rfl), eSet_of _ _ (cL L) (sL L) 2 (off2_cOff L 64#32 2 rfl),
    eSet_of _ _ (cL L) (sL L) 3 (off2_cOff L 96#32 3 rfl), eSet_of _ _ (cL L) (sL L) 4 (off2_cOff L 128#32 4 rfl), eSet_of _ _ (cL L) (sL L) 5 (off2_cOff L 160#32 5 rfl),
    eSet_of _ _ (cL L) (sL L) 6 (off2_cOff L 192#32 6 rfl), eSet_of _ _ (cL L) (sL L) 7 (off2_cOff L 224#32 7 rfl)]

omit [FloatOps F] in
theorem oOwn_eq (f : Buf (Elt F) (oLoc d)) :
    (iprop(own L d (oC0 L) f ∗ own L d (oC1 L) f ∗ own L d (oC2 L) f ∗ own L d (oC3 L) f ∗ own L d (oC4 L) f ∗ own L d (oC5 L) f ∗ own L d (oC6 L) f ∗ own L d (oC7 L) f) : sProp 𝕄)
      = bigSep Finset.univ fun r : Fin 8 => oLoc d ↦[cSet (cL L) (sL L) r]{fullShare} f := by
  rw [bigSep_fin8]
  show iprop((oLoc d ↦[(oC0 L).view.set]{fullShare} f) ∗ (oLoc d ↦[(oC1 L).view.set]{fullShare} f) ∗ (oLoc d ↦[(oC2 L).view.set]{fullShare} f)
    ∗ (oLoc d ↦[(oC3 L).view.set]{fullShare} f) ∗ (oLoc d ↦[(oC4 L).view.set]{fullShare} f) ∗ (oLoc d ↦[(oC5 L).view.set]{fullShare} f)
    ∗ (oLoc d ↦[(oC6 L).view.set]{fullShare} f) ∗ (oLoc d ↦[(oC7 L).view.set]{fullShare} f)) = _
  rw [oSet_of _ _ (cL L) (sL L) 0 (off2_cOff L 0#32 0 rfl), oSet_of _ _ (cL L) (sL L) 1 (off2_cOff L 32#32 1 rfl), oSet_of _ _ (cL L) (sL L) 2 (off2_cOff L 64#32 2 rfl),
    oSet_of _ _ (cL L) (sL L) 3 (off2_cOff L 96#32 3 rfl), oSet_of _ _ (cL L) (sL L) 4 (off2_cOff L 128#32 4 rfl), oSet_of _ _ (cL L) (sL L) 5 (off2_cOff L 160#32 5 rfl),
    oSet_of _ _ (cL L) (sL L) 6 (off2_cOff L 192#32 6 rfl), oSet_of _ _ (cL L) (sL L) 7 (off2_cOff L 224#32 7 rfl)]

end Link

/-! ## The tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__pos_copy (coordsV c s)
          eW (Memref.isWhole_whole _) oW (Memref.isWhole_whole _) bW (Memref.isWhole_whole _)
          cc0_scratch1 cc0_scratch2 cc0_scratch3 cc0_scratch4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task from the launch's statement of its chunks to the launch's statement of them back. -/
theorem tile_task (hF : (K (F := F)).Facts) (L : grid0.Coords) (d : Dev nD) (O : CellTallies nD τ sig (HIx 1)) (W : Waits sig (HIx 1))
    (hO : ∀ g, O g none = 0) :
    iprop(levAts (K (F := F)).L (K (F := F)).lev ∗ emp ∗ chunksIn m d (cL L) (sL L)
        ∗ scopedBufs (thr d L) ∗ scopedSems0 (thr d L) ∗ owes (thr d L) O W)
      ⊢ wp frame (wpE (defs₀ (F := F)) 𝒱₀ (thr d L) none) Set.univ
          (cc0__pos_copy L eW (Memref.isWhole_whole _) oW (Memref.isWhole_whole _) bW (Memref.isWhole_whole _)
            cc0_scratch1 cc0_scratch2 cc0_scratch3 cc0_scratch4)
          fun _ => iprop(chunksOut m d (cL L) (sL L) ∗ scopedBufs (thr d L) ∗ scopedSems0 (thr d L)
            ∗ ∃ W', ⌜∀ p ∈ W', p ∈ W ∨ p.2 = none⌝ ∗ owes (thr d L) O W') := by
  unfold chunksIn chunksOut tbl
  rw [← eOwn_eq L d (m (eLoc d)), ← oOwn_eq L d (m (oLoc d)), ← oOwn_eq L d (m (eLoc d))]
  refine BIBase.Entails.trans ?_ ((tile_body L d hF O W hO (m (eLoc d)) (m (oLoc d))).trans (wp_mono frame _ _ fun _ => ?_))
  · iintro ⟨Hlv, -, ⟨He, Ho⟩, Hsb, Hss, HO⟩
    isplitl [Hlv]; · iexact Hlv
    isplitl [He]; · iexact He
    isplitl [Ho]; · iexact Ho
    isplitl [Hsb]; · iexact Hsb
    isplitl [Hss]; · iexact Hss
    iexact HO
  · iintro ⟨He, Ho, Hsb, Hss, HW⟩
    isplitl [He Ho]
    · isplitl [He]; · iexact He
      iexact Ho
    isplitl [Hsb]; · iexact Hsb
    isplitl [Hss]; · iexact Hss
    iexact HW

theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task m hF (coordsV ⟨_, hc.1⟩ ⟨_, hc.2⟩) d O W hO).trans (wp_mono frame _ _ fun _ => obl_post)

/-! ## A SparseCore's share among its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun s : Fin 16 => chunksIn m d (Fin.cast nCore_zero c) s) ⊢ |={Set.univ}=> iprop(
      (bigSep Finset.univ fun i : Fin ((K (F := F)).nSub 0) => chunksIn m d (Fin.cast nCore_zero c) (Fin.cast nSub_zero i))
      ∗ ((bigSep Finset.univ fun i : Fin ((K (F := F)).nSub 0) => chunksOut m d (Fin.cast nCore_zero c) (Fin.cast nSub_zero i))
          -∗ bigSep Finset.univ fun s : Fin 16 => chunksOut m d (Fin.cast nCore_zero c) s))
  rw [bigSep_tasks (F := F) (fun s => chunksIn m d (Fin.cast nCore_zero c) s),
    bigSep_tasks (F := F) (fun s => chunksOut m d (Fin.cast nCore_zero c) s)]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev aLoc (d : Dev nD) : Loc nD τ sig := (SparseCore.T d).loc main_arg0
abbrev rLoc (d : Dev nD) : Loc nD τ sig := (SparseCore.T d).loc main_v1

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (eLoc d ↦{fullShare} W main_arg1)
      ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- What the call takes for the two SparseCores: the table and the output whole; -/
theorem st0_eq (d : Dev nD) :
    (bigSep Finset.univ fun c : Fin ((K (F := F)).nCore 0) => (P m).st 0 d c)
      = iprop((eLoc d ↦{fullShare} m (eLoc d)) ∗ oLoc d ↦{fullShare} m (oLoc d)) := by
  show (bigSep Finset.univ fun c : Fin ((K (F := F)).nCore 0) => bigSep Finset.univ fun s : Fin 16 => chunksIn m d (Fin.cast nCore_zero c) s) = _
  rw [bigSep_cores (F := F) (fun c => bigSep Finset.univ fun s : Fin 16 => chunksIn m d c s)]
  unfold chunksIn
  simp only [bigSep_sep']
  rw [← ePts_chunks, ← oPts_chunks]
/-- and what it hands back: the table, and the output at the table's values. -/
theorem dn0_eq (d : Dev nD) :
    (bigSep Finset.univ fun c : Fin ((K (F := F)).nCore 0) => (P m).dn 0 d c)
      = iprop((eLoc d ↦{fullShare} m (eLoc d)) ∗ oLoc d ↦{fullShare} tbl m d) := by
  show (bigSep Finset.univ fun c : Fin ((K (F := F)).nCore 0) => bigSep Finset.univ fun s : Fin 16 => chunksOut m d (Fin.cast nCore_zero c) s) = _
  rw [bigSep_cores (F := F) (fun c => bigSep Finset.univ fun s : Fin 16 => chunksOut m d c s)]
  unfold chunksOut
  simp only [bigSep_sep']
  rw [← ePts_chunks, ← oPts_chunks]

abbrev o' : DevRef τ sig := Proc.devRef .tc (main_v0 : Ref sig .tc)
abbrev r' : DevRef τ sig := Proc.devRef .tc (main_v1 : Ref sig .tc)
/-- The host operation after the call: a unit axis in front. -/
abbrev lift1 [FloatOps F] : (⟨S8192x1024, .f32⟩ : BufTy).Contents (Elt F) → (⟨S1x8192x1024, .f32⟩ : BufTy).Contents (Elt F) :=
  broadcastInDim S1x8192x1024 ![1, 2] bcast_S8192x1024_S1x8192x1024_1_2
abbrev opB : HloOp τ sig (Elt F) := StableHlo.unary main_v0 main_v1 (lift1 (F := F))
abbrev S2 : Finset (DevRef τ sig) := {o', r'}

omit [FloatOps F] in
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

/-- The valuation after the call: the output at f. -/
def V1 (d : Dev nD) (f : Buf (Elt F) (oLoc d)) : Valuation τ sig (Elt F) := Function.update (fun b => m (d, b)) o' f
theorem V1_o (d : Dev nD) (f : Buf (Elt F) (oLoc d)) : V1 m d f o' = f := Function.update_self _ _ _
theorem V1_r (d : Dev nD) (f : Buf (Elt F) (oLoc d)) : V1 m d f r' = m (rLoc d) := Function.update_of_ne (show r' ≠ o' by decide) _ _

theorem hB : (opB (F := F)).bufs ⊆ S2 := show ({o', r'} : Finset (DevRef τ sig)) ⊆ S2 by decide

theorem held_after (d : Dev nD) (f : Buf (Elt F) (oLoc d)) :
    (held (T d) S2 ((opB (F := F)).result (V1 m d f)) : sProp 𝕄) = iprop((oLoc d ↦{fullShare} f) ∗ rLoc d ↦{fullShare} lift1 f) := by
  have h1 : (opB (F := F)).result (V1 m d f) r' = lift1 f :=
    (StableHlo.unary_result main_v0 main_v1 _ _ _ (V1 m d f)).trans (congrArg lift1 (V1_o m d f))
  have h2 : (opB (F := F)).result (V1 m d f) o' = f :=
    ((opB (F := F)).result_of_not_mem (V1 m d f) (b := o') (show o' ∉ ({r'} : Finset (DevRef τ sig)) by decide)).trans (V1_o m d f)
  rw [held_S2, h1, h2]

/-- What @main leaves the claim: the arguments at their launch contents, the result at the table with a unit axis. -/
abbrev FIN (d : Dev nD) : sProp 𝕄 :=
  iprop((aLoc d ↦{fullShare} m (aLoc d)) ∗ (eLoc d ↦{fullShare} m (eLoc d)) ∗ rLoc d ↦{fullShare} lift1 (tbl m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, He, Ho, Hr⟩, -, -⟩, -⟩
  -- the call: the table and the output to the SparseCores and back
  iapply ((K (F := F)).wp_run (D (F := F)) 𝒱 (EH := EH) (P := P m) κ d 0) $$ [Hst He Ho Hb Ha Hr]
  isplitr; · iexact Hctx
  isplitl [Hst]; · iexact Hst
  isplitl [He Ho]
  · rw [st0_eq]
    isplitl [He]; · iexact He
    iexact Ho
  iintro ⟨Hst, Hdn⟩
  ihave Hdn' := (Entails.of_eq (dn0_eq m d)) $$ Hdn
  icases Hdn' with ⟨He, Ho⟩
  -- the unit axis, over the output and the result
  iapply (wp_hlo_within 𝒱 (SparseCore.T d) none Set.univ (op := opB) (S := S2) hB (V := V1 m d (tbl m d))) $$ [Hb Ho Hr]
  · isplitl [Hb]; · iexact Hb
    rw [held_S2, V1_o, V1_r]
    isplitl [Ho]; · iexact Ho
    iexact Hr
  iintro ⟨Hb, Hheld⟩
  ihave Hh := (Entails.of_eq (held_after (F := F) m d (tbl m d))) $$ Hheld
  icases Hh with ⟨-, Hr⟩
  rw [wp_ret]; imodintro; imodintro
  isplitl [Hst]; · iexact Hst
  isplitl [Ha]; · iexact Ha
  isplitl [He]; · iexact He
  iexact Hr

def fq (d : Dev nD) (s' : Phys nD τ sig (Elt F)) : Prop :=
  s'.mem.mem (aLoc d) = m (aLoc d) ∧ s'.mem.mem (eLoc d) = m (eLoc d) ∧ s'.mem.mem (rLoc d) = lift1 (tbl m d)

theorem hfin (d : Dev nD) (s' : Phys nD τ sig (Elt F)) : iprop(FIN m d ∗ SI s') ⊢ (⌜fq m d s'⌝ : sProp 𝕄) := by
  iintro ⟨⟨Ha, He, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h2, HSI, -⟩
  ihave H := (SI_pointsTo_agree (st := s') (ℓ := rLoc d) (I := Finset.univ) (q := fullShare) (f := lift1 (tbl m d))) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r => ∀ c : Dev nD,
  r.2.mem (rLoc c) = lift1 (tbl m c) ∧ r.2.mem (aLoc c) = m (aLoc c) ∧ r.2.mem (eLoc c) = m (eLoc c)

/-- Every weakly fair execution of the device's threads terminates, nothing faulting; the result is the table with a
    unit axis in front, the arguments are unchanged. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2.2, (h c).1, (h c).2.1⟩)

end Cert.Proof.IdealCopy

end
-- ==== Proof.BitsSetup.lean ====
/-
  The kernel as printed, read at the word level, as the SparseCore launch theorem sees it: one vector-subcore call on 2 SparseCores x 16
  vector subcores. Tile (c, s) is worker w = 2 s + c and moves rows [256 w, 256 w + 256) of the table into the
  output, in 8 chunks of 32 rows through the two halves of its scratch. Here: the ghost state (the handshakes'
  rounds beside the transfers' counters), the arrays' locations and the table's launch contents.
-/
import proofs.«202646_g14224931684789_cont_week2b_3_3_alg».proof.Defs
import Idealize.ShloMosaic.Lib.SparseCore.Launch
import Idealize.ShloMosaic.Lib.StableHlo.Run
import Idealize.ShloMosaic.Lib.Pipeline.Kit
import Idealize.ShloMosaic.Lib.Tactic
import proofs.«202646_g14224931684789_cont_week2b_3_3_alg».proof.Proof.Gen.Kernel
import proofs.«202646_g14224931684789_cont_week2b_3_3_alg».proof.Proof.Gen.Kernel.Skeleton

noncomputable section

namespace Cert.Proof.BitsCopy

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The table (the second argument of @main) and the kernel's output, as locations of device d. -/
abbrev eLoc (d : Dev nD) : Loc nD τ sig := (SparseCore.T d).loc main_arg1
abbrev oLoc (d : Dev nD) : Loc nD τ sig := (SparseCore.T d).loc main_v0

/-- The table's launch contents as a plain function of the index: what every output row is to hold. -/
def tbl (d : Dev nD) : S8192x1024.Idx → Elt F .f32 := m (eLoc d)

end Cert.Proof.BitsCopy

end
-- ==== Proof.BitsTile.lean ====
/-
  The task of one vector subcore: eight chunks of 32 rows, each fetched into a half of the scratch and written out from it.
-/
import proofs.«202646_g14224931684789_cont_week2b_3_3_alg».proof.Proof.BitsSetup

noncomputable section

namespace Cert.Proof.BitsCopy

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The memrefs, spelt as the body slices them -/

local notation "eW" => (Memref.whole Cert.Kernel.main_arg1_scv : Memref Cert.Kernel.sig Kind.scVector Space.hbm Cert.Kernel.S8192x1024 EltTy.f32)
local notation "oW" => (Memref.whole Cert.Kernel.main_v0_scv : Memref Cert.Kernel.sig Kind.scVector Space.hbm Cert.Kernel.S8192x1024 EltTy.f32)
local notation "bW" => (Memref.whole Cert.Kernel.cc0_scratch0 : Memref Cert.Kernel.sig Kind.scVector Space.vmem Cert.Kernel.S2x32x1024 EltTy.f32)

/-- The two halves of a tile's scratch. -/
abbrev half0 : Memref sig .scVector .vmem S32x1024 .f32 :=
  ((bW).slice (Rect.unit (s := S2x32x1024) ![0, 0, 0] S1x32x1024.size inb_S2x32x1024_S1x32x1024_0_0_0) (fun _ => rfl)).squeeze S32x1024 squeezes_S1x32x1024_S32x1024
abbrev half1 : Memref sig .scVector .vmem S32x1024 .f32 :=
  ((bW).slice (Rect.unit (s := S2x32x1024) ![1, 0, 0] S1x32x1024.size inb_S2x32x1024_S1x32x1024_1_0_0) (fun _ => rfl)).squeeze S32x1024 squeezes_S1x32x1024_S32x1024

section Tile

variable (L : grid0.Coords)

/-- Chunk r of the tile's rows of the table, r = 0 sliced at the tile's base and the others at base + 32 r. -/
abbrev eC0 : Memref sig .scVector .hbm S32x1024 .f32 := (eW).slice (Rect.unit (s := S8192x1024) (k0_off1 L) S32x1024.size (k0_off1_inb L)) (fun _ => rfl)
abbrev eC1 : Memref sig .scVector .hbm S32x1024 .f32 := (eW).slice (Rect.unit (s := S8192x1024) (k0_off2 L 32#32) S32x1024.size (k0_off2_inb L 1)) (fun _ => rfl)
abbrev eC2 : Memref sig .scVector .hbm S32x1024 .f32 := (eW).slice (Rect.unit (s := S8192x1024) (k0_off2 L 64#32) S32x1024.size (k0_off2_inb L 2)) (fun _ => rfl)
abbrev eC3 : Memref sig .scVector .hbm S32x1024 .f32 := (eW).slice (Rect.unit (s := S8192x1024) (k0_off2 L 96#32) S32x1024.size (k0_off2_inb L 3)) (fun _ => rfl)
abbrev eC4 : Memref sig .scVector .hbm S32x1024 .f32 := (eW).slice (Rect.unit (s := S8192x1024) (k0_off2 L 128#32) S32x1024.size (k0_off2_inb L 4)) (fun _ => rfl)
abbrev eC5 : Memref sig .scVector .hbm S32x1024 .f32 := (eW).slice (Rect.unit (s := S8192x1024) (k0_off2 L 160#32) S32x1024.size (k0_off2_inb L 5)) (fun _ => rfl)
abbrev eC6 : Memref sig .scVector .hbm S32x1024 .f32 := (eW).slice (Rect.unit (s := S8192x1024) (k0_off2 L 192#32) S32x1024.size (k0_off2_inb L 6)) (fun _ => rfl)
abbrev eC7 : Memref sig .scVector .hbm S32x1024 .f32 := (eW).slice (Rect.unit (s := S8192x1024) (k0_off2 L 224#32) S32x1024.size (k0_off2_inb L 7)) (fun _ => rfl)
/-- Chunk r of the tile's rows of the output. -/
abbrev oC0 : Memref sig .scVector .hbm S32x1024 .f32 := (oW).slice (Rect.unit (s := S8192x1024) (k0_off2 L 0#32) S32x1024.size (k0_off2_inb L 0)) (fun _ => rfl)
abbrev oC1 : Memref sig .scVector .hbm S32x1024 .f32 := (oW).slice (Rect.unit (s := S8192x1024) (k0_off2 L 32#32) S32x1024.size (k0_off2_inb L 1)) (fun _ => rfl)
abbrev oC2 : Memref sig .scVector .hbm S32x1024 .f32 := (oW).slice (Rect.unit (s := S8192x1024) (k0_off2 L 64#32) S32x1024.size (k0_off2_inb L 2)) (fun _ => rfl)
abbrev oC3 : Memref sig .scVector .hbm S32x1024 .f32 := (oW).slice (Rect.unit (s := S8192x1024) (k0_off2 L 96#32) S32x1024.size (k0_off2_inb L 3)) (fun _ => rfl)
abbrev oC4 : Memref sig .scVector .hbm S32x1024 .f32 := (oW).slice (Rect.unit (s := S8192x1024) (k0_off2 L 128#32) S32x1024.size (k0_off2_inb L 4)) (fun _ => rfl)
abbrev oC5 : Memref sig .scVector .hbm S32x1024 .f32 := (oW).slice (Rect.unit (s := S8192x1024) (k0_off2 L 160#32) S32x1024.size (k0_off2_inb L 5)) (fun _ => rfl)
abbrev oC6 : Memref sig .scVector .hbm S32x1024 .f32 := (oW).slice (Rect.unit (s := S8192x1024) (k0_off2 L 192#32) S32x1024.size (k0_off2_inb L 6)) (fun _ => rfl)
abbrev oC7 : Memref sig .scVector .hbm S32x1024 .f32 := (oW).slice (Rect.unit (s := S8192x1024) (k0_off2 L 224#32) S32x1024.size (k0_off2_inb L 7)) (fun _ => rfl)

variable (d : Dev nD)

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

/-- A memref's elements held outright by the tile. -/
abbrev own {κ : Space} {s : Shape} (M : Memref sig .scVector κ s .f32) (f : Buf (Elt F) (M.view.loc (thr d L))) : sProp 𝕄 :=
  M.view.loc (thr d L) ↦[M.view.set]{fullShare} f

variable [FloatOps F]

/-! ## The scratch as its two halves -/

abbrev R0 : Rect S2x32x1024 := Rect.unit (s := S2x32x1024) ![0, 0, 0] S1x32x1024.size inb_S2x32x1024_S1x32x1024_0_0_0
abbrev R1 : Rect S2x32x1024 := Rect.unit (s := S2x32x1024) ![1, 0, 0] S1x32x1024.size inb_S2x32x1024_S1x32x1024_1_0_0

omit L in
theorem half0_set : (half0).view.set = R0.set := by
  show (((bW).view.slice R0).reshape S32x1024 squeezes_S1x32x1024_S32x1024.numel_eq).set = _
  rw [View.set_reshape]
  show ((View.whole (cc0_scratch0 : Ref sig .scVector)).slice R0).set = _
  rw [View.set_slice]; exact Finset.map_refl
omit L in
theorem half1_set : (half1).view.set = R1.set := by
  show (((bW).view.slice R1).reshape S32x1024 squeezes_S1x32x1024_S32x1024.numel_eq).set = _
  rw [View.set_reshape]
  show ((View.whole (cc0_scratch0 : Ref sig .scVector)).slice R1).set = _
  rw [View.set_slice]; exact Finset.map_refl

omit L in
theorem halves_disjoint : Disjoint R0.set R1.set := Rect.unit_disjoint 0 (Or.inl (by decide))
omit L in
theorem halves_cover : R0.set ∪ R1.set = Finset.univ := by
  ext i
  simp only [Finset.mem_union, Rect.mem_set_unit, Finset.mem_univ, iff_true]
  have h0 : (i 0).val < 2 := (i 0).isLt
  have h1 : (i 1).val < 32 := (i 1).isLt
  have h2 : (i 2).val < 1024 := (i 2).isLt
  by_cases h : (i 0).val = 0
  · left; intro a
    match a with
    | ⟨0, _⟩ => exact ⟨Nat.zero_le _, by show (i 0).val < 0 + 1; omega⟩
    | ⟨1, _⟩ => exact ⟨Nat.zero_le _, by show (i 1).val < 0 + 32; omega⟩
    | ⟨2, _⟩ => exact ⟨Nat.zero_le _, by show (i 2).val < 0 + 1024; omega⟩
  · right; intro a
    match a with
    | ⟨0, _⟩ => exact ⟨by show 1 ≤ (i 0).val; omega, by show (i 0).val < 1 + 1; omega⟩
    | ⟨1, _⟩ => exact ⟨Nat.zero_le _, by show (i 1).val < 0 + 32; omega⟩
    | ⟨2, _⟩ => exact ⟨Nat.zero_le _, by show (i 2).val < 0 + 1024; omega⟩

/-- The tile's scratch, held whole, is its two halves held each by its own elements. -/
theorem scratch_split (f : Buf (Elt F) ((thr d L).loc cc0_scratch0)) :
    ((thr d L).loc cc0_scratch0 ↦{fullShare} f : sProp 𝕄) ⊣⊢ iprop(own L d half0 f ∗ own L d half1 f) := by
  show _ ⊣⊢ iprop(((thr d L).loc cc0_scratch0 ↦[half0.view.set]{fullShare} f) ∗ ((thr d L).loc cc0_scratch0 ↦[half1.view.set]{fullShare} f))
  rw [half0_set, half1_set]
  have h : ((thr d L).loc cc0_scratch0 ↦[R0.set ∪ R1.set]{fullShare} f : sProp 𝕄)
      ⊣⊢ iprop(((thr d L).loc cc0_scratch0 ↦[R0.set]{fullShare} f) ∗ (thr d L).loc cc0_scratch0 ↦[R1.set]{fullShare} f) :=
    pointsTo_union halves_disjoint
  rw [halves_cover] at h
  exact h

/-- and the halves, at whatever each holds, are the scratch again. -/
theorem scratch_join (g0 g1 : Buf (Elt F) ((thr d L).loc cc0_scratch0)) :
    iprop(own L d half0 g0 ∗ own L d half1 g1) ⊢ (iprop(∃ f, (thr d L).loc cc0_scratch0 ↦{fullShare} f) : sProp 𝕄) := by
  show iprop(((thr d L).loc cc0_scratch0 ↦[half0.view.set]{fullShare} g0) ∗ ((thr d L).loc cc0_scratch0 ↦[half1.view.set]{fullShare} g1)) ⊢ _
  rw [half0_set, half1_set]
  iintro H
  ihave H' := (pointsTo_join halves_disjoint) $$ H
  rw [halves_cover]
  iexists _; iexact H'

omit L d in
/-- A wait at the kernels' own index, recorded on top of waits that are the launch's or at that index. -/
theorem waits_ins {W S : Waits sig (HIx 1)} (sm : SemLoc sig) (h : ∀ p ∈ S, p ∈ W ∨ p.2 = none) :
    ∀ p ∈ insert (sm, (default : HIx 1)) S, p ∈ W ∨ p.2 = none :=
  fun p hp => (Finset.mem_insert.mp hp).elim (fun e => .inr (e ▸ rfl)) (h p)

/-! ## The tile's own cells and buffers -/

abbrev cell1 : GSem nD τ sig := (thr d L, .dma cc0_scratch1.sem)
abbrev cell2 : GSem nD τ sig := (thr d L, .dma cc0_scratch2.sem)
abbrev cell3 : GSem nD τ sig := (thr d L, .dma cc0_scratch3.sem)
abbrev cell4 : GSem nD τ sig := (thr d L, .dma cc0_scratch4.sem)

theorem ownSems0_V4 :
    (ownSems0 (thr d L) : sProp 𝕄)
      = iprop(semVal (cell1 L d) 0 ∗ semVal (cell2 L d) 0 ∗ semVal (cell3 L d) 0 ∗ semVal (cell4 L d) 0
          ∗ bigSep (((((ownCells (thr d L)).erase (cell1 L d)).erase (cell2 L d)).erase (cell3 L d)).erase (cell4 L d))
              fun g => semVal g 0) := by
  unfold SparseCore.Cfg.ownSems0
  have m1 : cell1 L d ∈ ownCells (thr d L) := (mem_ownCells (g := cell1 L d)).mpr ⟨rfl, by
    show (SemLoc.dma cc0_scratch1.sem : SemLoc sig).isScoped .scVector = true; decide⟩
  have m2 : cell2 L d ∈ ownCells (thr d L) := (mem_ownCells (g := cell2 L d)).mpr ⟨rfl, by
    show (SemLoc.dma cc0_scratch2.sem : SemLoc sig).isScoped .scVector = true; decide⟩
  have m3 : cell3 L d ∈ ownCells (thr d L) := (mem_ownCells (g := cell3 L d)).mpr ⟨rfl, by
    show (SemLoc.dma cc0_scratch3.sem : SemLoc sig).isScoped .scVector = true; decide⟩
  have m4 : cell4 L d ∈ ownCells (thr d L) := (mem_ownCells (g := cell4 L d)).mpr ⟨rfl, by
    show (SemLoc.dma cc0_scratch4.sem : SemLoc sig).isScoped .scVector = true; decide⟩
  have ne (a b : DmaSem sig) (h : a ≠ b) : ((thr d L, SemLoc.dma a) : GSem nD τ sig) ≠ (thr d L, SemLoc.dma b) :=
    fun e => h (SemLoc.dma.inj (Prod.mk.inj e).2)
  rw [SparseCore.bigSep_erase' m1,
    SparseCore.bigSep_erase' (Finset.mem_erase.mpr ⟨ne _ _ (by decide), m2⟩),
    SparseCore.bigSep_erase' (Finset.mem_erase.mpr ⟨ne _ _ (by decide), Finset.mem_erase.mpr ⟨ne _ _ (by decide), m3⟩⟩),
    SparseCore.bigSep_erase' (Finset.mem_erase.mpr ⟨ne _ _ (by decide), Finset.mem_erase.mpr ⟨ne _ _ (by decide),
      Finset.mem_erase.mpr ⟨ne _ _ (by decide), m4⟩⟩⟩)]

theorem ownBufs_V1 :
    (ownBufs (thr d L) : sProp 𝕄)
      = iprop((∃ f, (thr d L).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-! ## What a chunk of the output holds once its two copies have landed -/

theorem cast_cancel {α β : Sort _} (h : α = β) {a b : α} (e : cast h a = cast h b) : a = b := by subst h; exact e

/-- A piece written last through the whole rectangle is what the view reads back. -/
theorem read_last_whole {sg : RefSig} {κ : Kind} {sp : Space} {s : Shape} {e : EltTy} {Val : EltTy → Type}
    (v : View sg κ sp s e) (f : v.ty.Contents Val) (w : s.Idx → Val e) (Ls : List (View.Piece Val s e)) :
    v.read Val (v.writes Val f (⟨Rect.whole s, w⟩ :: Ls)) = w := by
  funext y
  have h := View.read_writes_cons_emb v f (Rect.whole s) w Ls y
  rwa [Rect.emb_whole_apply] at h

/-- Chunk to half to chunk: the output chunk reads back the table's chunk, whatever either held before. -/
theorem landed_read {sg : RefSig} {κ : Kind} {Val : EltTy → Type} {s : Shape} {e : EltTy}
    (Mo Me : View sg κ .hbm s e) (Mh : View sg κ .vmem s e)
    (fo : Mo.ty.Contents Val) (fe : Me.ty.Contents Val) (fh : Mh.ty.Contents Val) (Lh : List (View.Piece Val s e)) :
    Mo.read Val (Mo.writes Val fo [⟨Rect.whole s, ReadAs.same.apply (Mh.read Val (Mh.writes Val fh
      (⟨Rect.whole s, ReadAs.same.apply (Me.read Val fe)⟩ :: Lh)))⟩]) = Me.read Val fe := by
  rw [read_last_whole]
  show Mh.read Val _ = _
  rw [read_last_whole]

/-- The table's and the output's slices at one offset read one buffer alike. -/
theorem read_chunk_eq (o o' : Fin 2 → Nat) (h : ∀ a, o a + S32x1024.size a ≤ S8192x1024.size a)
    (h' : ∀ a, o' a + S32x1024.size a ≤ S8192x1024.size a) (e : o = o') (fe : Buf (Elt F) (eLoc d)) (y : S32x1024.Idx) :
    ((oW).slice (Rect.unit (s := S8192x1024) o' S32x1024.size h') (fun _ => rfl)).view.read (Elt F) fe y
      = ((eW).slice (Rect.unit (s := S8192x1024) o S32x1024.size h) (fun _ => rfl)).view.read (Elt F) fe y := by
  subst e; rfl

omit [FloatOps F] in
theorem off1_eq_off2 : k0_off1 L = k0_off2 L 0#32 :=
  (k0_off1_eq L).trans ((k0_off2_eq L 0).trans (by simp)).symm

/-- An output chunk written from a half that the table's chunk was fetched into holds the table's values there. -/
theorem own_landed (Mo Me : Memref sig .scVector .hbm S32x1024 .f32) (Mh : Memref sig .scVector .vmem S32x1024 .f32)
    (fo : Buf (Elt F) (Mo.view.loc (thr d L))) (fe : Buf (Elt F) (Me.view.loc (thr d L)))
    (fh : Buf (Elt F) (Mh.view.loc (thr d L))) (Lh : List (View.Piece (Elt F) S32x1024 .f32))
    (g : Buf (Elt F) (Mo.view.loc (thr d L))) (hg : ∀ y, Mo.view.read (Elt F) g y = Me.view.read (Elt F) fe y) :
    (own L d Mo (Mo.view.writes (Elt F) fo [⟨Rect.whole S32x1024, ReadAs.same.apply (Mh.view.read (Elt F)
        (Mh.view.writes (Elt F) fh (⟨Rect.whole S32x1024, ReadAs.same.apply (Me.view.read (Elt F) fe)⟩ :: Lh)))⟩]) : sProp 𝕄)
      = own L d Mo g :=
  pointsTo_congr fun i hi => by
    obtain ⟨y, -, rfl⟩ := Finset.mem_map.mp hi
    have h1 := (congrFun (landed_read Mo.view Me.view Mh.view fo fe fh Lh) y).trans (hg y).symm
    rw [View.read_apply, View.read_apply] at h1
    exact cast_cancel _ h1

set_option maxHeartbeats 4000000 in
/-- The task on vector subcore (L 0, L 1) of device d: each chunk of the table fetched into a half of the scratch and
    written out from it; at the end every output chunk holds the table's chunk. -/
theorem tile_body (hF : (K (F := F)).Facts) (O : CellTallies nD τ sig (HIx 1)) (W : Waits sig (HIx 1)) (hO : ∀ g, O g none = 0)
    (fe : Buf (Elt F) (eLoc d)) (fo : Buf (Elt F) (oLoc d)) :
    iprop(levAts (K (F := F)).L (K (F := F)).lev
        ∗ (own L d (eC0 L) fe ∗ own L d (eC1 L) fe ∗ own L d (eC2 L) fe ∗ own L d (eC3 L) fe ∗ own L d (eC4 L) fe ∗ own L d (eC5 L) fe ∗ own L d (eC6 L) fe ∗ own L d (eC7 L) fe)
        ∗ (own L d (oC0 L) fo ∗ own L d (oC1 L) fo ∗ own L d (oC2 L) fo ∗ own L d (oC3 L) fo ∗ own L d (oC4 L) fo ∗ own L d (oC5 L) fo ∗ own L d (oC6 L) fo ∗ own L d (oC7 L) fo)
        ∗ scopedBufs (thr d L) ∗ scopedSems0 (thr d L) ∗ owes (thr d L) O W)
      ⊢ wp frame (wpE (defs₀ (F := F)) 𝒱₀ (thr d L) none) Set.univ
          (cc0__pos_copy L eW (Memref.isWhole_whole _) oW (Memref.isWhole_whole _) bW (Memref.isWhole_whole _)
            cc0_scratch1 cc0_scratch2 cc0_scratch3 cc0_scratch4)
          fun _ => iprop((own L d (eC0 L) fe ∗ own L d (eC1 L) fe ∗ own L d (eC2 L) fe ∗ own L d (eC3 L) fe ∗ own L d (eC4 L) fe ∗ own L d (eC5 L) fe ∗ own L d (eC6 L) fe ∗ own L d (eC7 L) fe)
            ∗ (own L d (oC0 L) fe ∗ own L d (oC1 L) fe ∗ own L d (oC2 L) fe ∗ own L d (oC3 L) fe ∗ own L d (oC4 L) fe ∗ own L d (oC5 L) fe ∗ own L d (oC6 L) fe ∗ own L d (oC7 L) fe)
            ∗ scopedBufs (thr d L) ∗ scopedSems0 (thr d L)
            ∗ ∃ W', ⌜∀ p ∈ W', p ∈ W ∨ p.2 = none⌝ ∗ owes (thr d L) O W') := by
  simp only [cc0__pos_copy_eq_skeleton]; unfold cc0__pos_copy_skel
  rw [(K (F := F)).scopedBufs_V hF d (cV L) (jV L), SparseCore.Cfg.scopedSems0_V (Val := Elt F) d (cV L) (jV L), ownSems0_V4, ownBufs_V1]
  iintro ⟨#Hlv, ⟨He0, He1, He2, He3, He4, He5, He6, He7⟩, ⟨Ho0, Ho1, Ho2, Ho3, Ho4, Ho5, Ho6, Ho7⟩, ⟨⟨%fs, Hs⟩, Hbufs⟩, ⟨Hs1, Hs2, Hs3, Hs4, Hsems⟩, HO⟩
  ihave Hh := (scratch_split L d fs).1 $$ Hs
  icases Hh with ⟨Hb0, Hb1⟩
  ihave Hmw := ((K (F := F)).mayWaits_none (thr := thr d L) hO) $$ Hlv
  sl_exec_parts
  sl_step
  sl_unfold_run_names
  ihave Ho0' := (Entails.of_eq (own_landed L d (oC0 L) (eC0 L) half0 fo fe fs _ fe (fun y => read_chunk_eq d _ _ _ _ (off1_eq_off2 L) fe y))) $$ Ho0
  ihave Ho1' := (Entails.of_eq (own_landed L d (oC1 L) (eC1 L) half1 fo fe fs _ fe (fun y => read_chunk_eq d _ _ _ _ rfl fe y))) $$ Ho1
  ihave Ho2' := (Entails.of_eq (own_landed L d (oC2 L) (eC2 L) half0 fo fe fs _ fe (fun y => read_chunk_eq d _ _ _ _ rfl fe y))) $$ Ho2
  ihave Ho3' := (Entails.of_eq (own_landed L d (oC3 L) (eC3 L) half1 fo fe fs _ fe (fun y => read_chunk_eq d _ _ _ _ rfl fe y))) $$ Ho3
  ihave Ho4' := (Entails.of_eq (own_landed L d (oC4 L) (eC4 L) half0 fo fe fs _ fe (fun y => read_chunk_eq d _ _ _ _ rfl fe y))) $$ Ho4
  ihave Ho5' := (Entails.of_eq (own_landed L d (oC5 L) (eC5 L) half1 fo fe fs _ fe (fun y => read_chunk_eq d _ _ _ _ rfl fe y))) $$ Ho5
  ihave Ho6' := (Entails.of_eq (own_landed L d (oC6 L) (eC6 L) half0 fo fe fs _ fe (fun y => read_chunk_eq d _ _ _ _ rfl fe y))) $$ Ho6
  ihave Ho7' := (Entails.of_eq (own_landed L d (oC7 L) (eC7 L) half1 fo fe fs _ fe (fun y => read_chunk_eq d _ _ _ _ rfl fe y))) $$ Ho7
  isplitl [He0 He1 He2 He3 He4 He5 He6 He7]
  ·
    isplitl [He0]; · iexact He0
    isplitl [He1]; · iexact He1
    isplitl [He2]; · iexact He2
    isplitl [He3]; · iexact He3
    isplitl [He4]; · iexact He4
    isplitl [He5]; · iexact He5
    isplitl [He6]; · iexact He6
    iexact He7
  isplitl [Ho0' Ho1' Ho2' Ho3' Ho4' Ho5' Ho6' Ho7']
  ·
    isplitl [Ho0']; · iexact Ho0'
    isplitl [Ho1']; · iexact Ho1'
    isplitl [Ho2']; · iexact Ho2'
    isplitl [Ho3']; · iexact Ho3'
    isplitl [Ho4']; · iexact Ho4'
    isplitl [Ho5']; · iexact Ho5'
    isplitl [Ho6']; · iexact Ho6'
    iexact Ho7'
  isplitl [Hb0 Hb1 Hbufs]
  · isplitl [Hb0 Hb1]
    · iapply (scratch_join L d _ _)
      isplitl [Hb0]; · iexact Hb0
      iexact Hb1
    · iexact Hbufs
  isplitl [Hs1 Hs2 Hs3 Hs4 Hsems]
  ·
    isplitl [Hs1]; · iexact Hs1
    isplitl [Hs2]; · iexact Hs2
    isplitl [Hs3]; · iexact Hs3
    isplitl [Hs4]; · iexact Hs4
    iexact Hsems
  iexists _; isplitr
  rotate_left
  · iexact HO
  · ipureintro
    repeat (first | exact fun p hp => Or.inl hp | refine waits_ins _ ?_)

end Tile

end Cert.Proof.BitsCopy

end
-- ==== Proof.BitsRun.lean ====
/-
  The launch: what the handshakes carry (each tile its eight chunks of the table and of the output, the output's back at the table's values), the tile's obligation from its task, the split of a SparseCore's share among its tiles, the launch element, @main on the TensorCore, and the program's run with the result named.
-/
import proofs.«202646_g14224931684789_cont_week2b_3_3_alg».proof.Proof.BitsTile

noncomputable section

namespace Cert.Proof.BitsCopy

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "eW" => (Memref.whole Cert.Kernel.main_arg1_scv : Memref Cert.Kernel.sig Kind.scVector Space.hbm Cert.Kernel.S8192x1024 EltTy.f32)
local notation "oW" => (Memref.whole Cert.Kernel.main_v0_scv : Memref Cert.Kernel.sig Kind.scVector Space.hbm Cert.Kernel.S8192x1024 EltTy.f32)
local notation "bW" => (Memref.whole Cert.Kernel.cc0_scratch0 : Memref Cert.Kernel.sig Kind.scVector Space.vmem Cert.Kernel.S2x32x1024 EltTy.f32)

/-! ## The 256 chunks of 32 rows: chunk r of tile (c, s) starts at row 512 s + 256 c + 32 r -/

abbrev cOff (c : Fin 2) (s : Fin 16) (r : Fin 8) : Fin 2 → Nat := ![512 * s.val + 256 * c.val + 32 * r.val, 0]
theorem cOff_inb (c : Fin 2) (s : Fin 16) (r : Fin 8) : ∀ a, cOff c s r a + S32x1024.size a ≤ S8192x1024.size a := by
  intro a
  match a with
  | ⟨0, _⟩ => show 512 * s.val + 256 * c.val + 32 * r.val + 32 ≤ 8192; omega
  | ⟨1, _⟩ => show 0 + 1024 ≤ 1024; omega
abbrev cRect (c : Fin 2) (s : Fin 16) (r : Fin 8) : Rect S8192x1024 := Rect.unit (s := S8192x1024) (cOff c s r) S32x1024.size (cOff_inb c s r)
abbrev cSet (c : Fin 2) (s : Fin 16) (r : Fin 8) : Finset S8192x1024.Idx := (cRect c s r).set

abbrev J : Type := Fin 2 × Fin 16 × Fin 8

theorem cSet_disjoint : ∀ j ∈ (Finset.univ : Finset J), ∀ j' ∈ (Finset.univ : Finset J), j ≠ j' →
    Disjoint (cSet j.1 j.2.1 j.2.2) (cSet j'.1 j'.2.1 j'.2.2) := by
  rintro ⟨c, s, r⟩ - ⟨c', s', r'⟩ - hne
  refine Rect.unit_disjoint 0 ?_
  show 512 * s.val + 256 * c.val + 32 * r.val + 32 ≤ 512 * s'.val + 256 * c'.val + 32 * r'.val
    ∨ 512 * s'.val + 256 * c'.val + 32 * r'.val + 32 ≤ 512 * s.val + 256 * c.val + 32 * r.val
  have hn : ¬ (c.val = c'.val ∧ s.val = s'.val ∧ r.val = r'.val) :=
    fun ⟨h1, h2, h3⟩ => hne (Prod.ext (Fin.ext h1) (Prod.ext (Fin.ext h2) (Fin.ext h3)))
  have := c.isLt; have := c'.isLt; have := s.isLt; have := s'.isLt; have := r.isLt; have := r'.isLt
  omega

theorem cSet_cover : (Finset.univ : Finset J).biUnion (fun j => cSet j.1 j.2.1 j.2.2) = Finset.univ := by
  ext i
  simp only [Finset.mem_biUnion, Finset.mem_univ, true_and, iff_true]
  have h0 : (i 0).val < 8192 := (i 0).isLt
  have h1 : (i 1).val < 1024 := (i 1).isLt
  refine ⟨(⟨((i 0).val % 512) / 256, by omega⟩, ⟨(i 0).val / 512, by omega⟩, ⟨((i 0).val % 256) / 32, by omega⟩), ?_⟩
  refine Rect.mem_set_unit.mpr fun a => ?_
  match a with
  | ⟨0, _⟩ =>
    exact ⟨by show 512 * ((i 0).val / 512) + 256 * ((i 0).val % 512 / 256) + 32 * ((i 0).val % 256 / 32) ≤ (i 0).val; omega,
      by show (i 0).val < 512 * ((i 0).val / 512) + 256 * ((i 0).val % 512 / 256) + 32 * ((i 0).val % 256 / 32) + 32; omega⟩
  | ⟨1, _⟩ => exact ⟨Nat.zero_le _, by show (i 1).val < 0 + 1024; omega⟩

omit [FloatOps F] in
theorem ePts_chunks (d : Dev nD) (f : Buf (Elt F) (eLoc d)) :
    (eLoc d ↦{fullShare} f : sProp 𝕄)
      = bigSep Finset.univ fun c : Fin 2 => bigSep Finset.univ fun s : Fin 16 => bigSep Finset.univ fun r : Fin 8 => eLoc d ↦[cSet c s r]{fullShare} f := by
  have h : (eLoc d ↦[(Finset.univ : Finset J).biUnion fun j => cSet j.1 j.2.1 j.2.2]{fullShare} f : sProp 𝕄)
      = bigSep Finset.univ fun j : J => eLoc d ↦[cSet j.1 j.2.1 j.2.2]{fullShare} f :=
    pointsTo_biUnion Finset.univ _ cSet_disjoint
  rw [cSet_cover] at h
  refine h.trans ?_
  rw [bigSep_univ_prod]
  refine bigSep_congr fun c _ => ?_
  rw [bigSep_univ_prod]

omit [FloatOps F] in
theorem oPts_chunks (d : Dev nD) (f : Buf (Elt F) (oLoc d)) :
    (oLoc d ↦{fullShare} f : sProp 𝕄)
      = bigSep Finset.univ fun c : Fin 2 => bigSep Finset.univ fun s : Fin 16 => bigSep Finset.univ fun r : Fin 8 => oLoc d ↦[cSet c s r]{fullShare} f := by
  have h : (oLoc d ↦[(Finset.univ : Finset J).biUnion fun j => cSet j.1 j.2.1 j.2.2]{fullShare} f : sProp 𝕄)
      = bigSep Finset.univ fun j : J => oLoc d ↦[cSet j.1 j.2.1 j.2.2]{fullShare} f :=
    pointsTo_biUnion Finset.univ _ cSet_disjoint
  rw [cSet_cover] at h
  refine h.trans ?_
  rw [bigSep_univ_prod]
  refine bigSep_congr fun c _ => ?_
  rw [bigSep_univ_prod]

/-! ## What the handshakes carry -/

omit [FloatOps F] in
theorem bound_zero : grid0.bound 0 = 2 := rfl
omit [FloatOps F] in
theorem bound_one : grid0.bound 1 = 16 := rfl

/-- A tile's eight chunks of the table and of the output, the output at its launch contents; -/
def chunksIn (d : Dev nD) (c : Fin 2) (s : Fin 16) : sProp 𝕄 :=
  iprop((bigSep Finset.univ fun r : Fin 8 => eLoc d ↦[cSet c s r]{fullShare} m (eLoc d))
    ∗ bigSep Finset.univ fun r : Fin 8 => oLoc d ↦[cSet c s r]{fullShare} m (oLoc d))
/-- and back, the output's chunks at the table's values. -/
def chunksOut (d : Dev nD) (c : Fin 2) (s : Fin 16) : sProp 𝕄 :=
  iprop((bigSep Finset.univ fun r : Fin 8 => eLoc d ↦[cSet c s r]{fullShare} m (eLoc d))
    ∗ bigSep Finset.univ fun r : Fin 8 => oLoc d ↦[cSet c s r]{fullShare} tbl m d)

instance chunksIn_storable (d : Dev nD) (c : Fin 2) (s : Fin 16) : BI.Storable (upEmb : UEmb _ 𝕄) (chunksIn m d c s) := by
  unfold chunksIn; infer_instance
instance chunksOut_storable (d : Dev nD) (c : Fin 2) (s : Fin 16) : BI.Storable (upEmb : UEmb _ 𝕄) (chunksOut m d c s) := by
  unfold chunksOut; infer_instance

/-- The one call hands SparseCore c its sixteen tiles' chunks, each tile its own, and brings them back. -/
def P : (K (F := F)).Pay (nD := nD) (Val := Elt F) (Name := ℕ) (U := UU) where
  st := fun q d c => match q with | 0 => bigSep Finset.univ fun s : Fin 16 => chunksIn m d (Fin.cast nCore_zero c) s
  dn := fun q d c => match q with | 0 => bigSep Finset.univ fun s : Fin 16 => chunksOut m d (Fin.cast nCore_zero c) s
  go := fun q d c i => match q with | 0 => chunksIn m d (Fin.cast nCore_zero c) (Fin.cast nSub_zero i)
  td := fun q d c i => match q with | 0 => chunksOut m d (Fin.cast nCore_zero c) (Fin.cast nSub_zero i)
  x := fun _ _ => iprop(emp)

instance P_storable : (P (F := F) m).IsStorable where
  st q d c := match q with | 0 => (inferInstance : BI.Storable (upEmb : UEmb _ 𝕄) (bigSep Finset.univ fun s : Fin 16 => chunksIn m d (Fin.cast nCore_zero c) s))
  dn q d c := match q with | 0 => (inferInstance : BI.Storable (upEmb : UEmb _ 𝕄) (bigSep Finset.univ fun s : Fin 16 => chunksOut m d (Fin.cast nCore_zero c) s))
  go q d c i := match q with | 0 => (inferInstance : BI.Storable (upEmb : UEmb _ 𝕄) (chunksIn m d (Fin.cast nCore_zero c) (Fin.cast nSub_zero i)))
  td q d c i := match q with | 0 => (inferInstance : BI.Storable (upEmb : UEmb _ 𝕄) (chunksOut m d (Fin.cast nCore_zero c) (Fin.cast nSub_zero i)))

/-! ## The tile's chunks as the launch states them and as the body slices them -/

omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

section Link

variable (L : grid0.Coords)

abbrev cL (L : grid0.Coords) : Fin 2 := Fin.cast bound_zero (L 0)
abbrev sL (L : grid0.Coords) : Fin 16 := Fin.cast bound_one (L 1)

omit [FloatOps F] in
/-- A slice of the table at a chunk's offset has the chunk's elements; -/
theorem eSet_of (o : Fin 2 → Nat) (h : ∀ a, o a + S32x1024.size a ≤ S8192x1024.size a) (c : Fin 2) (s : Fin 16) (r : Fin 8)
    (e : o = cOff c s r) :
    ((eW).slice (Rect.unit (s := S8192x1024) o S32x1024.size h) (fun _ => rfl)).view.set = cSet c s r := by
  subst e
  show ((View.whole (main_arg1_scv : Ref sig .scVector)).slice _).set = _
  rw [View.set_slice]; exact Finset.map_refl
omit [FloatOps F] in
/-- so has the output's. -/
theorem oSet_of (o : Fin 2 → Nat) (h : ∀ a, o a + S32x1024.size a ≤ S8192x1024.size a) (c : Fin 2) (s : Fin 16) (r : Fin 8)
    (e : o = cOff c s r) :
    ((oW).slice (Rect.unit (s := S8192x1024) o S32x1024.size h) (fun _ => rfl)).view.set = cSet c s r := by
  subst e
  show ((View.whole (main_v0_scv : Ref sig .scVector)).slice _).set = _
  rw [View.set_slice]; exact Finset.map_refl

omit [FloatOps F] in
theorem off1_cOff : k0_off1 L = cOff (cL L) (sL L) 0 := (k0_off1_eq L).trans (by simp [cOff])
omit [FloatOps F] in
theorem off2_cOff (w : BitVec 32) (r : Fin 8) (hw : w = BitVec.ofNat 32 (32 * r.val)) : k0_off2 L w = cOff (cL L) (sL L) r :=
  hw ▸ k0_off2_eq L r

variable (d : Dev nD)

omit [FloatOps F] in
theorem eOwn_eq (f : Buf (Elt F) (eLoc d)) :
    (iprop(own L d (eC0 L) f ∗ own L d (eC1 L) f ∗ own L d (eC2 L) f ∗ own L d (eC3 L) f ∗ own L d (eC4 L) f ∗ own L d (eC5 L) f ∗ own L d (eC6 L) f ∗ own L d (eC7 L) f) : sProp 𝕄)
      = bigSep Finset.univ fun r : Fin 8 => eLoc d ↦[cSet (cL L) (sL L) r]{fullShare} f := by
  rw [bigSep_fin8]
  show iprop((eLoc d ↦[(eC0 L).view.set]{fullShare} f) ∗ (eLoc d ↦[(eC1 L).view.set]{fullShare} f) ∗ (eLoc d ↦[(eC2 L).view.set]{fullShare} f)
    ∗ (eLoc d ↦[(eC3 L).view.set]{fullShare} f) ∗ (eLoc d ↦[(eC4 L).view.set]{fullShare} f) ∗ (eLoc d ↦[(eC5 L).view.set]{fullShare} f)
    ∗ (eLoc d ↦[(eC6 L).view.set]{fullShare} f) ∗ (eLoc d ↦[(eC7 L).view.set]{fullShare} f)) = _
  rw [eSet_of _ _ (cL L) (sL L) 0 (off1_cOff L), eSet_of _ _ (cL L) (sL L) 1 (off2_cOff L 32#32 1 rfl), eSet_of _ _ (cL L) (sL L) 2 (off2_cOff L 64#32 2 rfl),
    eSet_of _ _ (cL L) (sL L) 3 (off2_cOff L 96#32 3 rfl), eSet_of _ _ (cL L) (sL L) 4 (off2_cOff L 128#32 4 rfl), eSet_of _ _ (cL L) (sL L) 5 (off2_cOff L 160#32 5 rfl),
    eSet_of _ _ (cL L) (sL L) 6 (off2_cOff L 192#32 6 rfl), eSet_of _ _ (cL L) (sL L) 7 (off2_cOff L 224#32 7 rfl)]

omit [FloatOps F] in
theorem oOwn_eq (f : Buf (Elt F) (oLoc d)) :
    (iprop(own L d (oC0 L) f ∗ own L d (oC1 L) f ∗ own L d (oC2 L) f ∗ own L d (oC3 L) f ∗ own L d (oC4 L) f ∗ own L d (oC5 L) f ∗ own L d (oC6 L) f ∗ own L d (oC7 L) f) : sProp 𝕄)
      = bigSep Finset.univ fun r : Fin 8 => oLoc d ↦[cSet (cL L) (sL L) r]{fullShare} f := by
  rw [bigSep_fin8]
  show iprop((oLoc d ↦[(oC0 L).view.set]{fullShare} f) ∗ (oLoc d ↦[(oC1 L).view.set]{fullShare} f) ∗ (oLoc d ↦[(oC2 L).view.set]{fullShare} f)
    ∗ (oLoc d ↦[(oC3 L).view.set]{fullShare} f) ∗ (oLoc d ↦[(oC4 L).view.set]{fullShare} f) ∗ (oLoc d ↦[(oC5 L).view.set]{fullShare} f)
    ∗ (oLoc d ↦[(oC6 L).view.set]{fullShare} f) ∗ (oLoc d ↦[(oC7 L).view.set]{fullShare} f)) = _
  rw [oSet_of _ _ (cL L) (sL L) 0 (off2_cOff L 0#32 0 rfl), oSet_of _ _ (cL L) (sL L) 1 (off2_cOff L 32#32 1 rfl), oSet_of _ _ (cL L) (sL L) 2 (off2_cOff L 64#32 2 rfl),
    oSet_of _ _ (cL L) (sL L) 3 (off2_cOff L 96#32 3 rfl), oSet_of _ _ (cL L) (sL L) 4 (off2_cOff L 128#32 4 rfl), oSet_of _ _ (cL L) (sL L) 5 (off2_cOff L 160#32 5 rfl),
    oSet_of _ _ (cL L) (sL L) 6 (off2_cOff L 192#32 6 rfl), oSet_of _ _ (cL L) (sL L) 7 (off2_cOff L 224#32 7 rfl)]

end Link

/-! ## The tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__pos_copy (coordsV c s)
          eW (Memref.isWhole_whole _) oW (Memref.isWhole_whole _) bW (Memref.isWhole_whole _)
          cc0_scratch1 cc0_scratch2 cc0_scratch3 cc0_scratch4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task from the launch's statement of its chunks to the launch's statement of them back. -/
theorem tile_task (hF : (K (F := F)).Facts) (L : grid0.Coords) (d : Dev nD) (O : CellTallies nD τ sig (HIx 1)) (W : Waits sig (HIx 1))
    (hO : ∀ g, O g none = 0) :
    iprop(levAts (K (F := F)).L (K (F := F)).lev ∗ emp ∗ chunksIn m d (cL L) (sL L)
        ∗ scopedBufs (thr d L) ∗ scopedSems0 (thr d L) ∗ owes (thr d L) O W)
      ⊢ wp frame (wpE (defs₀ (F := F)) 𝒱₀ (thr d L) none) Set.univ
          (cc0__pos_copy L eW (Memref.isWhole_whole _) oW (Memref.isWhole_whole _) bW (Memref.isWhole_whole _)
            cc0_scratch1 cc0_scratch2 cc0_scratch3 cc0_scratch4)
          fun _ => iprop(chunksOut m d (cL L) (sL L) ∗ scopedBufs (thr d L) ∗ scopedSems0 (thr d L)
            ∗ ∃ W', ⌜∀ p ∈ W', p ∈ W ∨ p.2 = none⌝ ∗ owes (thr d L) O W') := by
  unfold chunksIn chunksOut tbl
  rw [← eOwn_eq L d (m (eLoc d)), ← oOwn_eq L d (m (oLoc d)), ← oOwn_eq L d (m (eLoc d))]
  refine BIBase.Entails.trans ?_ ((tile_body L d hF O W hO (m (eLoc d)) (m (oLoc d))).trans (wp_mono frame _ _ fun _ => ?_))
  · iintro ⟨Hlv, -, ⟨He, Ho⟩, Hsb, Hss, HO⟩
    isplitl [Hlv]; · iexact Hlv
    isplitl [He]; · iexact He
    isplitl [Ho]; · iexact Ho
    isplitl [Hsb]; · iexact Hsb
    isplitl [Hss]; · iexact Hss
    iexact HO
  · iintro ⟨He, Ho, Hsb, Hss, HW⟩
    isplitl [He Ho]
    · isplitl [He]; · iexact He
      iexact Ho
    isplitl [Hsb]; · iexact Hsb
    isplitl [Hss]; · iexact Hss
    iexact HW

theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task m hF (coordsV ⟨_, hc.1⟩ ⟨_, hc.2⟩) d O W hO).trans (wp_mono frame _ _ fun _ => obl_post)

/-! ## A SparseCore's share among its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun s : Fin 16 => chunksIn m d (Fin.cast nCore_zero c) s) ⊢ |={Set.univ}=> iprop(
      (bigSep Finset.univ fun i : Fin ((K (F := F)).nSub 0) => chunksIn m d (Fin.cast nCore_zero c) (Fin.cast nSub_zero i))
      ∗ ((bigSep Finset.univ fun i : Fin ((K (F := F)).nSub 0) => chunksOut m d (Fin.cast nCore_zero c) (Fin.cast nSub_zero i))
          -∗ bigSep Finset.univ fun s : Fin 16 => chunksOut m d (Fin.cast nCore_zero c) s))
  rw [bigSep_tasks (F := F) (fun s => chunksIn m d (Fin.cast nCore_zero c) s),
    bigSep_tasks (F := F) (fun s => chunksOut m d (Fin.cast nCore_zero c) s)]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev aLoc (d : Dev nD) : Loc nD τ sig := (SparseCore.T d).loc main_arg0
abbrev rLoc (d : Dev nD) : Loc nD τ sig := (SparseCore.T d).loc main_v1

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (eLoc d ↦{fullShare} W main_arg1)
      ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- What the call takes for the two SparseCores: the table and the output whole; -/
theorem st0_eq (d : Dev nD) :
    (bigSep Finset.univ fun c : Fin ((K (F := F)).nCore 0) => (P m).st 0 d c)
      = iprop((eLoc d ↦{fullShare} m (eLoc d)) ∗ oLoc d ↦{fullShare} m (oLoc d)) := by
  show (bigSep Finset.univ fun c : Fin ((K (F := F)).nCore 0) => bigSep Finset.univ fun s : Fin 16 => chunksIn m d (Fin.cast nCore_zero c) s) = _
  rw [bigSep_cores (F := F) (fun c => bigSep Finset.univ fun s : Fin 16 => chunksIn m d c s)]
  unfold chunksIn
  simp only [bigSep_sep']
  rw [← ePts_chunks, ← oPts_chunks]
/-- and what it hands back: the table, and the output at the table's values. -/
theorem dn0_eq (d : Dev nD) :
    (bigSep Finset.univ fun c : Fin ((K (F := F)).nCore 0) => (P m).dn 0 d c)
      = iprop((eLoc d ↦{fullShare} m (eLoc d)) ∗ oLoc d ↦{fullShare} tbl m d) := by
  show (bigSep Finset.univ fun c : Fin ((K (F := F)).nCore 0) => bigSep Finset.univ fun s : Fin 16 => chunksOut m d (Fin.cast nCore_zero c) s) = _
  rw [bigSep_cores (F := F) (fun c => bigSep Finset.univ fun s : Fin 16 => chunksOut m d c s)]
  unfold chunksOut
  simp only [bigSep_sep']
  rw [← ePts_chunks, ← oPts_chunks]

abbrev o' : DevRef τ sig := Proc.devRef .tc (main_v0 : Ref sig .tc)
abbrev r' : DevRef τ sig := Proc.devRef .tc (main_v1 : Ref sig .tc)
/-- The host operation after the call: a unit axis in front. -/
abbrev lift1 [FloatOps F] : (⟨S8192x1024, .f32⟩ : BufTy).Contents (Elt F) → (⟨S1x8192x1024, .f32⟩ : BufTy).Contents (Elt F) :=
  broadcastInDim S1x8192x1024 ![1, 2] bcast_S8192x1024_S1x8192x1024_1_2
abbrev opB : HloOp τ sig (Elt F) := StableHlo.unary main_v0 main_v1 (lift1 (F := F))
abbrev S2 : Finset (DevRef τ sig) := {o', r'}

omit [FloatOps F] in
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

/-- The valuation after the call: the output at f. -/
def V1 (d : Dev nD) (f : Buf (Elt F) (oLoc d)) : Valuation τ sig (Elt F) := Function.update (fun b => m (d, b)) o' f
theorem V1_o (d : Dev nD) (f : Buf (Elt F) (oLoc d)) : V1 m d f o' = f := Function.update_self _ _ _
theorem V1_r (d : Dev nD) (f : Buf (Elt F) (oLoc d)) : V1 m d f r' = m (rLoc d) := Function.update_of_ne (show r' ≠ o' by decide) _ _

theorem hB : (opB (F := F)).bufs ⊆ S2 := show ({o', r'} : Finset (DevRef τ sig)) ⊆ S2 by decide

theorem held_after (d : Dev nD) (f : Buf (Elt F) (oLoc d)) :
    (held (T d) S2 ((opB (F := F)).result (V1 m d f)) : sProp 𝕄) = iprop((oLoc d ↦{fullShare} f) ∗ rLoc d ↦{fullShare} lift1 f) := by
  have h1 : (opB (F := F)).result (V1 m d f) r' = lift1 f :=
    (StableHlo.unary_result main_v0 main_v1 _ _ _ (V1 m d f)).trans (congrArg lift1 (V1_o m d f))
  have h2 : (opB (F := F)).result (V1 m d f) o' = f :=
    ((opB (F := F)).result_of_not_mem (V1 m d f) (b := o') (show o' ∉ ({r'} : Finset (DevRef τ sig)) by decide)).trans (V1_o m d f)
  rw [held_S2, h1, h2]

/-- What @main leaves the claim: the arguments at their launch contents, the result at the table with a unit axis. -/
abbrev FIN (d : Dev nD) : sProp 𝕄 :=
  iprop((aLoc d ↦{fullShare} m (aLoc d)) ∗ (eLoc d ↦{fullShare} m (eLoc d)) ∗ rLoc d ↦{fullShare} lift1 (tbl m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, He, Ho, Hr⟩, -, -⟩, -⟩
  -- the call: the table and the output to the SparseCores and back
  iapply ((K (F := F)).wp_run (D (F := F)) 𝒱 (EH := EH) (P := P m) κ d 0) $$ [Hst He Ho Hb Ha Hr]
  isplitr; · iexact Hctx
  isplitl [Hst]; · iexact Hst
  isplitl [He Ho]
  · rw [st0_eq]
    isplitl [He]; · iexact He
    iexact Ho
  iintro ⟨Hst, Hdn⟩
  ihave Hdn' := (Entails.of_eq (dn0_eq m d)) $$ Hdn
  icases Hdn' with ⟨He, Ho⟩
  -- the unit axis, over the output and the result
  iapply (wp_hlo_within 𝒱 (SparseCore.T d) none Set.univ (op := opB) (S := S2) hB (V := V1 m d (tbl m d))) $$ [Hb Ho Hr]
  · isplitl [Hb]; · iexact Hb
    rw [held_S2, V1_o, V1_r]
    isplitl [Ho]; · iexact Ho
    iexact Hr
  iintro ⟨Hb, Hheld⟩
  ihave Hh := (Entails.of_eq (held_after (F := F) m d (tbl m d))) $$ Hheld
  icases Hh with ⟨-, Hr⟩
  rw [wp_ret]; imodintro; imodintro
  isplitl [Hst]; · iexact Hst
  isplitl [Ha]; · iexact Ha
  isplitl [He]; · iexact He
  iexact Hr

def fq (d : Dev nD) (s' : Phys nD τ sig (Elt F)) : Prop :=
  s'.mem.mem (aLoc d) = m (aLoc d) ∧ s'.mem.mem (eLoc d) = m (eLoc d) ∧ s'.mem.mem (rLoc d) = lift1 (tbl m d)

theorem hfin (d : Dev nD) (s' : Phys nD τ sig (Elt F)) : iprop(FIN m d ∗ SI s') ⊢ (⌜fq m d s'⌝ : sProp 𝕄) := by
  iintro ⟨⟨Ha, He, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h2, HSI, -⟩
  ihave H := (SI_pointsTo_agree (st := s') (ℓ := rLoc d) (I := Finset.univ) (q := fullShare) (f := lift1 (tbl m d))) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r => ∀ c : Dev nD,
  r.2.mem (rLoc c) = lift1 (tbl m c) ∧ r.2.mem (aLoc c) = m (aLoc c) ∧ r.2.mem (eLoc c) = m (eLoc c)

/-- Every weakly fair execution of the device's threads terminates, nothing faulting; the result is the table with a
    unit axis in front, the arguments are unchanged. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2.2, (h c).1, (h c).2.1⟩)

end Cert.Proof.BitsCopy

end
-- ==== Proof.RefRun.lean ====
/-
  The reference's run. Its @main makes the positions 0 .. 8191, takes those rows of the table (the index
  normalised, the gather clamped, a row whose index was out of range filled with the NaN pattern) and puts a unit
  axis in front. Here: @main as the list of its host operations with the two helper functions inlined at their
  calls, and the run read back: the result is the operations' composed term of the table, the arguments unchanged.
-/
import proofs.«202646_g14224931684789_cont_week2b_3_3_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of @main in order: the iota, the 24 of the two helpers, the broadcast. -/
abbrev ops : List (HloOp τ sig (Elt F)) :=
  [ nullary main_v0 (iotaInDim S8192 32 0),
    TRef.nullary main_call0.c (constantI S_ 32 0#32),
    TRef.unary main_call0.c main_call0.v0 (broadcastInDim S8192 ![] bcast_S_S8192),
    TRef.binary (.of main_v0) main_call0.v0 main_call0.v1 (cmpi .slt),
    TRef.nullary main_call0.c_0 (constantI S_ 32 8192#32),
    TRef.unary main_call0.c_0 main_call0.v2 (broadcastInDim S8192 ![] bcast_S_S8192),
    TRef.binary (.of main_v0) main_call0.v2 main_call0.v3 addi,
    TRef.ternary main_call0.v1 main_call0.v3 (.of main_v0) main_call0.call0.v0 select,
    TRef.unary main_call0.call0.v0 main_call0.v5 (broadcastInDim S8192x1 ![0] bcast_S8192_S8192x1_0),
    TRef.nullary main_call0.c_1 (constantI S1 32 8191#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg1) main_call0.v5 main_call0.v13 (fun x i => Host.gather gather_S8192x1024_S8192x1_S8192x1024_1_0_n_n_0_1_11024 x i),
    TRef.unary main_call0.v12 main_call0.v14 (broadcastInDim S8192x1024 ![0] bcast_S8192_S8192x1024_0),
    TRef.nullary main_call0.cst (constant S_ .f32 0x7FC00000#32),
    TRef.unary main_call0.cst main_call0.v15 (broadcastInDim S8192x1024 ![] bcast_S_S8192x1024),
    TRef.ternary main_call0.v14 main_call0.v13 main_call0.v15 main_call0.v16 select,
    unary main_v1 main_v2 (broadcastInDim S1x8192x1024 ![1, 2] bcast_S8192x1024_S1x8192x1024_1_2 : (⟨S8192x1024, .f32⟩ : BufTy).Contents (Elt F) → (⟨S1x8192x1024, .f32⟩ : BufTy).Contents (Elt F)) ]

set_option maxRecDepth 1024 in
/-- @main is that straight line: the helpers unfolded at their calls, sequencing reassociated. -/
theorem main_eq (c : Dev nD) : main (F := F) c = seq ops := by
  simp only [main, fn_take.body, fn_where.body, seq, bind_assoc, pure_bind]

/-- The positions' table: index r is the word r. -/
def pos : IVec S8192 32 := iotaInDim S8192 32 0

/-- The indices as the gather takes them: a negative position moved up by the row count (none is), one per row. -/
def idx : IVec S8192x1 32 :=
  broadcastInDim S8192x1 ![0] bcast_S8192_S8192x1_0
    (select (cmpi .slt pos (broadcastInDim S8192 ![] bcast_S_S8192 (constantI S_ 32 0#32)))
      (addi pos (broadcastInDim S8192 ![] bcast_S_S8192 (constantI S_ 32 8192#32))) pos)

/-- Which rows' indices lie in [0, 8191]. -/
def inRange : IVec S8192 1 :=
  Host.reduce IntOp.andi
    (andi (cmpi .sge idx (broadcastInDim S8192x1 ![] bcast_S_S8192x1 (constantI S_ 32 0#32)))
      (cmpi .sle idx (broadcastInDim S8192x1 ![0, 1] bcast_S1x1_S8192x1_0_1 (broadcastInDim S1x1 ![1] bcast_S1_S1x1_1 (constantI S1 32 8191#32)))))
    (constantI S_ 1 1#1) reducesTo_S8192x1_S8192_d1 h_S_

/-- The result as one term of the table. -/
def out (x : FVec F S8192x1024 .f32) : FVec F S1x8192x1024 .f32 :=
  broadcastInDim S1x8192x1024 ![1, 2] bcast_S8192x1024_S1x8192x1024_1_2
    (select (broadcastInDim S8192x1024 ![0] bcast_S8192_S8192x1024_0 inRange)
      (Host.gather gather_S8192x1024_S8192x1_S8192x1024_1_0_n_n_0_1_11024 x idx)
      (broadcastInDim S8192x1024 ![] bcast_S_S8192x1024 (constant S_ .f32 0x7FC00000#32)))

attribute [local irreducible] Host.reduce Host.gather broadcastInDim iotaInDim in
set_option maxRecDepth 8192 in
set_option maxHeartbeats 1000000 in
/-- The fold of the operations at the result buffer is that term. -/
theorem out_eq (V : Valuation τ sig (Elt F)) : after ops V (main_v2 : DevRef τ sig) = out (V (main_arg1 : DevRef τ sig)) := by
  unfold out inRange idx pos
  simp only [after_cons, after_nil]
  rfl

theorem arg0_eq (V : Valuation τ sig (Elt F)) : after ops V (main_arg0 : DevRef τ sig) = V (main_arg0 : DevRef τ sig) := by
  after_results

theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub ..⟩

/-- On every device, from any memory with zero counters: every weakly fair execution of @main terminates with the
    result at that term of the table and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = out (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (out_eq _), (h c main_arg0).trans (arg0_eq _), (h c main_arg1).trans (arg1_eq _)⟩)
    (run_seq scopedRefs_eq scopedSems_eq defs main (fun _ => ops) main_eq (fun _ => ops_sub) m ρ)

end Cert.ReferenceIdeal.RefValue

end
-- ==== Proof.LibRowGather.lean ====
/-
  A row gather read at an entry.

  The host's gather `x[idx]` of M rows out of an N×n operand — start indices M×1, one per result row, naming the operand
  row — reads, at entry (i, q), the operand at (row, q), where the row is the start index of result row i read as a
  signed integer and clamped into [0, N − 1]. The row depends on the start index alone, not on n, so gathers of
  several operands of N rows by the same start indices read the same rows. No program is mentioned here.
-/
import Idealize.ShloMosaic.PureOps.Ideal.Laws
import Idealize.ShloMosaic.PureOps.Dims
import Idealize.ShloMosaic.Lib.ValueIdx

noncomputable section

namespace Cert.RowGather

open Idealize.ShloMosaic Idealize.ShloMosaic.ValueIdx

variable {α : Type} {N M n w : ℕ}

/-- The operand row a start index names: the word read signed, negative values taken to 0, clamped to the last row. -/
def clampRow (N : ℕ) (hN : 0 < N) {w : ℕ} (v : BitVec w) : Fin N := ⟨min v.toInt.toNat (N - 1), by omega⟩

/-- The dimension numbers of a row gather: the result's axis 1 is the offset axis and reads the operand's axis 1 whole
    (slice sizes 1×n); the operand's axis 0 is collapsed and named by the one component of the start index; the start
    indices' axis 1 is the index vector's. Their conditions `wf` are decided on a program's literal shapes. -/
abbrev rowDims (N M n : ℕ) (wf : GatherDims.WF ⟨2, ![N, n]⟩ ⟨2, ![M, 1]⟩ ⟨2, ![M, n]⟩ [1] [0] [] [0] [] 1 ![1, n]) :
    GatherDims ⟨2, ![N, n]⟩ ⟨2, ![M, 1]⟩ ⟨2, ![M, n]⟩ where
  offsetDims := [1]
  collapsedSliceDims := [0]
  operandBatchingDims := []
  startIndicesBatchingDims := []
  startIndexMap := [0]
  indexVectorDim := 1
  sliceSizes := ![1, n]
  wf := wf

/-- THE ROW GATHER READ AT (i, q): the operand at the clamped start index of result row i, column q. -/
theorem gather_entry (hN : 0 < N) (wf : GatherDims.WF ⟨2, ![N, n]⟩ ⟨2, ![M, 1]⟩ ⟨2, ![M, n]⟩ [1] [0] [] [0] [] 1 ![1, n])
    (x : (⟨2, ![N, n]⟩ : Shape).Idx → α) (idx : IVec ⟨2, ![M, 1]⟩ w) (i : Fin M) (q : Fin n) :
    Host.gather (rowDims N M n wf) x idx (ix2 i q) = x (ix2 (clampRow N hN (idx (ix2 i 0))) q) := by
  have m0 : (0 : Fin 2) ∈ (rowDims N M n wf).startIndexMap := List.mem_singleton.mpr rfl
  have n1 : (1 : Fin 2) ∉ (rowDims N M n wf).startIndexMap := (show (1 : Fin 2) ∉ ([0] : List (Fin 2)) from by decide)
  have k0 : (0 : Fin 2) ∉ (rowDims N M n wf).sKept :=
    fun h => (((rowDims N M n wf).mem_sKept 0).mp h).1 (List.mem_singleton.mpr rfl)
  have k1 : (1 : Fin 2) ∈ (rowDims N M n wf).sKept :=
    ((rowDims N M n wf).mem_sKept 1).mpr ⟨(show (1 : Fin 2) ∉ ([0] : List (Fin 2)) from by decide), List.not_mem_nil⟩
  unfold Host.gather
  refine congrArg x (funext fun a => Fin.ext ?_)
  match a with
  | ⟨0, _⟩ =>
    show (rowDims N M n wf).start (ix2 i q) idx 0 + (rowDims N M n wf).batchCoord (ix2 i q) 0
      + (rowDims N M n wf).offCoord (ix2 i q) 0 = _
    rw [GatherDims.batchCoord_eq_zero _ _ _ List.not_mem_nil, GatherDims.offCoord_eq_zero _ _ _ k0]
    simp only [Nat.add_zero]
    unfold GatherDims.start
    rw [dif_pos m0]
    have hsi : (rowDims N M n wf).siIdx (ix2 i q) ⟨List.idxOf (0 : Fin 2) (rowDims N M n wf).startIndexMap,
        List.idxOf_lt_length_iff.2 m0⟩ = ix2 i 0 := by
      funext b; refine Fin.ext ?_
      match b with
      | ⟨0, _⟩ => rfl
      | ⟨1, _⟩ => rfl
    rw [hsi]
    rfl
  | ⟨1, _⟩ =>
    show (rowDims N M n wf).start (ix2 i q) idx 1 + (rowDims N M n wf).batchCoord (ix2 i q) 1
      + (rowDims N M n wf).offCoord (ix2 i q) 1 = q.val
    rw [GatherDims.batchCoord_eq_zero _ _ _ List.not_mem_nil]
    have hs : (rowDims N M n wf).start (ix2 i q) idx 1 = 0 := by
      unfold GatherDims.start; rw [dif_neg n1]
    have ho : (rowDims N M n wf).offCoord (ix2 i q) 1 = q.val := by
      unfold GatherDims.offCoord; rw [dif_pos k1]; rfl
    rw [hs, ho]
    omega

end Cert.RowGather

end
-- ==== Proof.RefBridge.lean ====
/-
  The reference's term is the table with a unit axis in front. Position r is the word r, below 2^31 and within
  [0, 8191]: the index is not moved, the clamp keeps it, every row is in range, so the gather reads row r and the
  select keeps it.
-/
import proofs.«202646_g14224931684789_cont_week2b_3_3_alg».proof.Proof.RefRun
import proofs.«202646_g14224931684789_cont_week2b_3_3_alg».proof.Proof.LibRowGather
import Idealize.ShloMosaic.Lib.ValueIdx

noncomputable section

namespace Cert.ReferenceIdeal.RefValue

open Cert.ReferenceIdeal Cert.ReferenceIdeal.Gen Idealize.ShloMosaic Idealize.ShloMosaic.ValueIdx

variable {F : FTy → Type} [FloatOps F]

/-- A word below 2^31 read signed is itself. -/
theorem toInt_small (r : Nat) (h : r < 8192) : (BitVec.ofNat 32 r).toInt = (r : Int) := by
  rw [BitVec.toInt_eq_toNat_cond, BitVec.toNat_ofNat]
  have : r % 2 ^ 32 = r := Nat.mod_eq_of_lt (by omega)
  rw [this]
  split <;> omega

/-- The gather's index for row r is the word r. -/
theorem idx_word (r : Fin 8192) (z : Fin 1) : idx (ix2 r z) = BitVec.ofNat 32 r.val := by
  have hlt : ¬ (BitVec.ofNat 32 r.val).toInt < (0#32 : BitVec 32).toInt := by
    rw [toInt_small r.val r.isLt]; show ¬ ((r.val : Int) < 0); omega
  show Scalar.select (IntOp.cmpi .slt (BitVec.ofNat 32 r.val) 0#32) (IntOp.addi (BitVec.ofNat 32 r.val) 8192#32) (BitVec.ofNat 32 r.val) = _
  unfold Scalar.select IntOp.cmpi
  simp only [BitVec.slt, hlt, decide_false, BitVec.ofBool_false]
  rfl

/-- A fold by and over one-bit words that are all 1, from 1, is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- Every row's index lies in [0, 8191]. -/
theorem inRange_one (j : S8192.Idx) : inRange j = 1#1 := by
  unfold inRange
  rw [Host.reduce_eq_foldl]
  refine foldl_andi_one _ _ (fun i _ => ?_)
  obtain ⟨r, z, rfl⟩ : ∃ (r : Fin 8192) (z : Fin 1), i = ix2 r z := ⟨i 0, i 1, eq_ix2 i⟩
  show IntOp.andi (IntOp.cmpi .sge (idx (ix2 r z)) 0#32) (IntOp.cmpi .sle (idx (ix2 r z)) 8191#32) = 1#1
  rw [idx_word]
  have e0 : (0#32 : BitVec 32).toInt = 0 := by decide
  have e1 : (8191#32 : BitVec 32).toInt = 8191 := by decide
  have h0 : decide ((0 : Int) ≤ (r.val : Int)) = true := decide_eq_true (by omega)
  have h1 : decide ((r.val : Int) ≤ 8191) = true := decide_eq_true (by have := r.isLt; omega)
  unfold IntOp.cmpi IntOp.andi
  simp only [BitVec.sle, toInt_small r.val r.isLt, e0, e1, h0, h1]
  decide

/-- The unit axis put in front. -/
abbrev lift1 : (⟨S8192x1024, .f32⟩ : BufTy).Contents (Elt F) → (⟨S1x8192x1024, .f32⟩ : BufTy).Contents (Elt F) :=
  broadcastInDim S1x8192x1024 ![1, 2] bcast_S8192x1024_S1x8192x1024_1_2

/-- The reference's result is the table with a unit axis in front. -/
theorem out_eq_table (x : FVec F S8192x1024 .f32) : out x = lift1 x := by
  unfold out
  refine congrArg lift1 (funext fun j => ?_)
  obtain ⟨r, q, rfl⟩ : ∃ (r : Fin 8192) (q : Fin 1024), j = ix2 r q := ⟨j 0, j 1, eq_ix2 j⟩
  have hm : broadcastInDim S8192x1024 ![0] bcast_S8192_S8192x1024_0 inRange (ix2 r q) = 1#1 := inRange_one _
  show Scalar.select (broadcastInDim S8192x1024 ![0] bcast_S8192_S8192x1024_0 inRange (ix2 r q))
    (Host.gather gather_S8192x1024_S8192x1_S8192x1024_1_0_n_n_0_1_11024 x idx (ix2 r q)) _ = x (ix2 r q)
  rw [hm]
  show (if (1#1 : BitVec 1) = 1 then _ else _) = _
  rw [if_pos (by decide : (1#1 : BitVec 1) = 1)]
  have hg := Cert.RowGather.gather_entry (N := 8192) (M := 8192) (n := 1024) (by decide)
    Facts₀.gather_S8192x1024_S8192x1_S8192x1024_1_0_n_n_0_1_11024_wf x idx r q
  refine (show Host.gather gather_S8192x1024_S8192x1_S8192x1024_1_0_n_n_0_1_11024 x idx (ix2 r q)
    = Host.gather (Cert.RowGather.rowDims 8192 8192 1024 Facts₀.gather_S8192x1024_S8192x1_S8192x1024_1_0_n_n_0_1_11024_wf) x idx (ix2 r q) from rfl).trans (hg.trans ?_)
  rw [idx_word]
  have hc : Cert.RowGather.clampRow 8192 (by decide) (BitVec.ofNat 32 r.val) = r := by
    apply Fin.ext
    show min (BitVec.ofNat 32 r.val).toInt.toNat (8192 - 1) = r.val
    rw [toInt_small r.val r.isLt]
    have := r.isLt
    simp only [Int.toNat_natCast]
    omega
  rw [hc]

end Cert.ReferenceIdeal.RefValue

end
-- ==== Proof.lean ====
/-
  The kernel copies the table's 8192 rows into its output, worker w = 2 s + c (tile s of SparseCore c) moving rows
  [256 w, 256 w + 256) in eight chunks of 32 rows through the two halves of its scratch, and @main puts a unit axis in
  front. The reference takes rows 0 .. 8191 of the table (each index in range, so the clamp and the fill change
  nothing) and puts the same unit axis in front. Both results are the table with a unit axis: equal index by index,
  with no arithmetic on the entries, so the precondition is not used.

  The three frames are the programs' runs with the result dropped. The idealization rewrote nothing (the ledger is
  empty), so what it preserves is trivial.
-/
import proofs.«202646_g14224931684789_cont_week2b_3_3_alg».proof.Defs
import proofs.«202646_g14224931684789_cont_week2b_3_3_alg».proof.Proof.Gen.Kernel
import proofs.«202646_g14224931684789_cont_week2b_3_3_alg».proof.Proof.Gen.Kernel.Skeleton
import proofs.«202646_g14224931684789_cont_week2b_3_3_alg».proof.Proof.Gen.KernelIdeal
import proofs.«202646_g14224931684789_cont_week2b_3_3_alg».proof.Proof.Gen.KernelIdeal.Skeleton
import proofs.«202646_g14224931684789_cont_week2b_3_3_alg».proof.Proof.Gen.ReferenceIdeal
import proofs.«202646_g14224931684789_cont_week2b_3_3_alg».proof.Proof.Gen.Pre_finite_inputs
import proofs.«202646_g14224931684789_cont_week2b_3_3_alg».proof.Proof.IdealRun
import proofs.«202646_g14224931684789_cont_week2b_3_3_alg».proof.Proof.BitsRun
import proofs.«202646_g14224931684789_cont_week2b_3_3_alg».proof.Proof.RefBridge
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun _ h c => ⟨(h c).2.1, (h c).2.2⟩) (Cert.Proof.BitsCopy.run_main (F := Bits) m ρ)

theorem frame_ki : Cert.frame_KernelIdeal := fun m ρ _ =>
  (θ_run Cert.KernelIdeal.defs _ _).mono (fun _ h c => ⟨(h c).2.1, (h c).2.2⟩) (Cert.Proof.IdealCopy.run_main (F := Ideal) m ρ)

theorem frame_r : Cert.frame_ReferenceIdeal := fun m ρ _ =>
  (θ_run Cert.ReferenceIdeal.defs _ _).mono (fun _ h c => (h c).2) (Cert.ReferenceIdeal.RefValue.run (F := Ideal) m ρ)

/-- Both programs end with the table, a unit axis in front. -/
theorem algebraic : Cert.algebraic_KernelIdeal_ReferenceIdeal := by
  intro m ρ m' ρ' _ hagree
  refine ⟨fun c => Cert.Proof.IdealCopy.lift1 (Cert.Proof.IdealCopy.tbl m c), Cert.Proof.IdealCopy.run_main (F := Ideal) m ρ, ?_⟩
  refine (θ_run Cert.ReferenceIdeal.defs _ _).mono (fun _ h c => ⟨(h c).1.trans ?_, (h c).2⟩)
    (Cert.ReferenceIdeal.RefValue.run (F := Ideal) m' ρ')
  rw [(hagree c).2, Cert.ReferenceIdeal.RefValue.out_eq_table]
  rfl

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
